-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1258578x3 : Shape := ⟨2, ![1258578, 3]⟩
abbrev S1258578x1 : Shape := ⟨2, ![1258578, 1]⟩
abbrev S1259650x1 : Shape := ⟨2, ![1259650, 1]⟩
abbrev S8x4 : Shape := ⟨2, ![8, 4]⟩
abbrev S8x4x131072 : Shape := ⟨3, ![8, 4, 131072]⟩
abbrev S_ : Shape := ⟨0, ![]⟩

class Facts : Prop where
  bcast_S_S1258578x3 : S_.BroadcastsInDim S1258578x3 (![] : Fin 0 → Fin S1258578x3.rank)
  reducesTo_S1258578x3_S_d0_1 : S1258578x3.ReducesTo [0, 1] S_
  h_S_ : 0 < S_.numel
  bcast_S_S1258578x1 : S_.BroadcastsInDim S1258578x1 (![] : Fin 0 → Fin S1258578x1.rank)
  reducesTo_S1258578x1_S_d0_1 : S1258578x1.ReducesTo [0, 1] S_
  bcast_S_S1259650x1 : S_.BroadcastsInDim S1259650x1 (![] : Fin 0 → Fin S1259650x1.rank)
  reducesTo_S1259650x1_S_d0_1 : S1259650x1.ReducesTo [0, 1] S_
  bcast_S_S8x4 : S_.BroadcastsInDim S8x4 (![] : Fin 0 → Fin S8x4.rank)
  reducesTo_S8x4_S_d0_1 : S8x4.ReducesTo [0, 1] S_

variable [Facts]

def fn_part1 {F : FTy → Type} [FloatOps F] (main_v13 : IVec S_ 1) (main_v16 : IVec S8x4 1) : IVec S_ 1 :=
  let main_c_5 : IVec S_ 1 := constantI S_ 1 1#1
  let main_v17 : IVec S_ 1 := (fun x v => Host.reduce IntOp.andi x v reducesTo_S8x4_S_d0_1 h_S_) main_v16 main_c_5
  let main_v18 : IVec S_ 1 := andi main_v13 main_v17
  main_v18

def fn {F : FTy → Type} [FloatOps F] (main_arg0 : FVec F S1258578x3 .f32) (main_arg1 : FVec F S1258578x1 .f32) (main_arg2 : FVec F S1259650x1 .f32) (main_arg3 : FVec F S8x4 .f32) (main_arg4 : IVec S8x4x131072 1) (main_arg5 : IVec S8x4x131072 1) : IVec S_ 1 :=
  let main_v0 : FVec F S1258578x3 .f32 := Host.absf main_arg0
  let main_cst : FVec F S_ .f32 := constant S_ .f32 0x7F800000#32
  let main_v1 : FVec F S1258578x3 .f32 := broadcastInDim S1258578x3 ![] bcast_S_S1258578x3 main_cst
  let main_v2 : IVec S1258578x3 1 := cmpf .olt main_v0 main_v1
  let main_c : IVec S_ 1 := constantI S_ 1 1#1
  let main_v3 : IVec S_ 1 := (fun x v => Host.reduce IntOp.andi x v reducesTo_S1258578x3_S_d0_1 h_S_) main_v2 main_c
  let main_v4 : FVec F S1258578x1 .f32 := Host.absf main_arg1
  let main_cst_0 : FVec F S_ .f32 := constant S_ .f32 0x7F800000#32
  let main_v5 : FVec F S1258578x1 .f32 := broadcastInDim S1258578x1 ![] bcast_S_S1258578x1 main_cst_0
  let main_v6 : IVec S1258578x1 1 := cmpf .olt main_v4 main_v5
  let main_c_1 : IVec S_ 1 := constantI S_ 1 1#1
  let main_v7 : IVec S_ 1 := (fun x v => Host.reduce IntOp.andi x v reducesTo_S1258578x1_S_d0_1 h_S_) main_v6 main_c_1
  let main_v8 : IVec S_ 1 := andi main_v3 main_v7
  let main_v9 : FVec F S1259650x1 .f32 := Host.absf main_arg2
  let main_cst_2 : FVec F S_ .f32 := constant S_ .f32 0x7F800000#32
  let main_v10 : FVec F S1259650x1 .f32 := broadcastInDim S1259650x1 ![] bcast_S_S1259650x1 main_cst_2
  let main_v11 : IVec S1259650x1 1 := cmpf .olt main_v9 main_v10
  let main_c_3 : IVec S_ 1 := constantI S_ 1 1#1
  let main_v12 : IVec S_ 1 := (fun x v => Host.reduce IntOp.andi x v reducesTo_S1259650x1_S_d0_1 h_S_) main_v11 main_c_3
  let main_v13 : IVec S_ 1 := andi main_v8 main_v12
  let main_v14 : FVec F S8x4 .f32 := Host.absf main_arg3
  let main_cst_4 : FVec F S_ .f32 := constant S_ .f32 0x7F800000#32
  let main_v15 : FVec F S8x4 .f32 := broadcastInDim S8x4 ![] bcast_S_S8x4 main_cst_4
  let main_v16 : IVec S8x4 1 := cmpf .olt main_v14 main_v15
  fn_part1 (F := F) main_v13 main_v16
-- ==== Kernel.lean ====
abbrev S1258578x3 : Shape := ⟨2, ![1258578, 3]⟩
abbrev S1258578x1 : Shape := ⟨2, ![1258578, 1]⟩
abbrev S1259650x1 : Shape := ⟨2, ![1259650, 1]⟩
abbrev S8x4 : Shape := ⟨2, ![8, 4]⟩
abbrev S8x4x131072 : Shape := ⟨3, ![8, 4, 131072]⟩
abbrev S4194304 : Shape := ⟨1, ![4194304]⟩
abbrev S_ : Shape := ⟨0, ![]⟩
abbrev S4194304x1 : Shape := ⟨2, ![4194304, 1]⟩
abbrev S1 : Shape := ⟨1, ![1]⟩
abbrev S1x1 : Shape := ⟨2, ![1, 1]⟩
abbrev S4194304x3 : Shape := ⟨2, ![4194304, 3]⟩
abbrev S32x131072x3 : Shape := ⟨3, ![32, 131072, 3]⟩
abbrev S32x131072x1 : Shape := ⟨3, ![32, 131072, 1]⟩
abbrev S32x131072 : Shape := ⟨2, ![32, 131072]⟩
abbrev S32x1 : Shape := ⟨2, ![32, 1]⟩
abbrev S32x128x3 : Shape := ⟨3, ![32, 128, 3]⟩
abbrev S32x128x1 : Shape := ⟨3, ![32, 128, 1]⟩
abbrev S32x128 : Shape := ⟨2, ![32, 128]⟩
abbrev S8x4x131072x3 : Shape := ⟨4, ![8, 4, 131072, 3]⟩
abbrev S8x4x131072x1 : Shape := ⟨4, ![8, 4, 131072, 1]⟩

abbrev nBuf : Space → Nat
  | .hbm => 121
  | .vmem => 17
  | .smem => 0
  | _ => 0

abbrev bufTy : (tb : Table) → Fin (tcTables nBuf tb) → BufTy
  | .hbm, ⟨0, _⟩ => ⟨S1258578x3, .f32⟩
  | .hbm, ⟨1, _⟩ => ⟨S1258578x1, .f32⟩
  | .hbm, ⟨2, _⟩ => ⟨S1259650x1, .f32⟩
  | .hbm, ⟨3, _⟩ => ⟨S8x4, .f32⟩
  | .hbm, ⟨4, _⟩ => ⟨S8x4x131072, .i1⟩
  | .hbm, ⟨5, _⟩ => ⟨S8x4x131072, .i1⟩
  | .hbm, ⟨6, _⟩ => ⟨S4194304, .i1⟩
  | .hbm, ⟨7, _⟩ => ⟨S4194304, .i1⟩
  | .hbm, ⟨8, _⟩ => ⟨S4194304, .i32⟩
  | .hbm, ⟨9, _⟩ => ⟨S_, .i32⟩
  | .hbm, ⟨10, _⟩ => ⟨S_, .i32⟩
  | .hbm, ⟨11, _⟩ => ⟨S4194304, .i32⟩
  | .hbm, ⟨12, _⟩ => ⟨S_, .i32⟩
  | .hbm, ⟨13, _⟩ => ⟨S4194304, .i32⟩
  | .hbm, ⟨14, _⟩ => ⟨S4194304, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4194304, .i32⟩
  | .hbm, ⟨19, _⟩ => ⟨S4194304, .i32⟩
  | .hbm, ⟨20, _⟩ => ⟨S_, .i32⟩
  | .hbm, ⟨21, _⟩ => ⟨S4194304, .i32⟩
  | .hbm, ⟨22, _⟩ => ⟨S4194304, .i32⟩
  | .hbm, ⟨23, _⟩ => ⟨S4194304, .i32⟩
  | .hbm, ⟨24, _⟩ => ⟨S_, .i32⟩
  | .hbm, ⟨25, _⟩ => ⟨S_, .i32⟩
  | .hbm, ⟨26, _⟩ => ⟨S4194304, .i32⟩
  | .hbm, ⟨27, _⟩ => ⟨S_, .i32⟩
  | .hbm, ⟨28, _⟩ => ⟨S4194304, .i32⟩
  | .hbm, ⟨29, _⟩ => ⟨S4194304, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S4194304, .i32⟩
  | .hbm, ⟨34, _⟩ => ⟨S4194304, .i32⟩
  | .hbm, ⟨35, _⟩ => ⟨S_, .i32⟩
  | .hbm, ⟨36, _⟩ => ⟨S4194304, .i32⟩
  | .hbm, ⟨37, _⟩ => ⟨S4194304, .i32⟩
  | .hbm, ⟨38, _⟩ => ⟨S_, .i32⟩
  | .hbm, ⟨39, _⟩ => ⟨S4194304, .i32⟩
  | .hbm, ⟨40, _⟩ => ⟨S4194304, .i1⟩
  | .hbm, ⟨41, _⟩ => ⟨S_, .i32⟩
  | .hbm, ⟨42, _⟩ => ⟨S4194304, .i32⟩
  | .hbm, ⟨43, _⟩ => ⟨S4194304, .i32⟩
  | .hbm, ⟨44, _⟩ => ⟨S4194304, .i32⟩
  | .hbm, ⟨45, _⟩ => ⟨S4194304x1, .i32⟩
  | .hbm, ⟨46, _⟩ => ⟨S1, .i32⟩
  | .hbm, ⟨47, _⟩ => ⟨S_, .i32⟩
  | .hbm, ⟨48, _⟩ => ⟨S4194304x1, .i32⟩
  | .hbm, ⟨49, _⟩ => ⟨S4194304x1, .i1⟩
  | .hbm, ⟨50, _⟩ => ⟨S1x1, .i32⟩
  | .hbm, ⟨51, _⟩ => ⟨S4194304x1, .i32⟩
  | .hbm, ⟨52, _⟩ => ⟨S4194304x1, .i1⟩
  | .hbm, ⟨53, _⟩ => ⟨S4194304x1, .i1⟩
  | .hbm, ⟨54, _⟩ => ⟨S_, .i1⟩
  | .hbm, ⟨55, _⟩ => ⟨S4194304, .i1⟩
  | .hbm, ⟨56, _⟩ => ⟨S4194304x3, .f32⟩
  | .hbm, ⟨57, _⟩ => ⟨S4194304x3, .i1⟩
  | .hbm, ⟨58, _⟩ => ⟨S_, .f32⟩
  | .hbm, ⟨59, _⟩ => ⟨S4194304x3, .f32⟩
  | .hbm, ⟨60, _⟩ => ⟨S4194304x3, .f32⟩
  | .hbm, ⟨61, _⟩ => ⟨S32x131072x3, .f32⟩
  | .hbm, ⟨62, _⟩ => ⟨S_, .i32⟩
  | .hbm, ⟨63, _⟩ => ⟨S4194304, .i32⟩
  | .hbm, ⟨64, _⟩ => ⟨S4194304, .i1⟩
  | .hbm, ⟨65, _⟩ => ⟨S_, .i32⟩
  | .hbm, ⟨66, _⟩ => ⟨S4194304, .i32⟩
  | .hbm, ⟨67, _⟩ => ⟨S4194304, .i32⟩
  | .hbm, ⟨68, _⟩ => ⟨S4194304, .i32⟩
  | .hbm, ⟨69, _⟩ => ⟨S4194304x1, .i32⟩
  | .hbm, ⟨70, _⟩ => ⟨S1, .i32⟩
  | .hbm, ⟨71, _⟩ => ⟨S_, .i32⟩
  | .hbm, ⟨72, _⟩ => ⟨S4194304x1, .i32⟩
  | .hbm, ⟨73, _⟩ => ⟨S4194304x1, .i1⟩
  | .hbm, ⟨74, _⟩ => ⟨S1x1, .i32⟩
  | .hbm, ⟨75, _⟩ => ⟨S4194304x1, .i32⟩
  | .hbm, ⟨76, _⟩ => ⟨S4194304x1, .i1⟩
  | .hbm, ⟨77, _⟩ => ⟨S4194304x1, .i1⟩
  | .hbm, ⟨78, _⟩ => ⟨S_, .i1⟩
  | .hbm, ⟨79, _⟩ => ⟨S4194304, .i1⟩
  | .hbm, ⟨80, _⟩ => ⟨S4194304x1, .f32⟩
  | .hbm, ⟨81, _⟩ => ⟨S4194304x1, .i1⟩
  | .hbm, ⟨82, _⟩ => ⟨S_, .f32⟩
  | .hbm, ⟨83, _⟩ => ⟨S4194304x1, .f32⟩
  | .hbm, ⟨84, _⟩ => ⟨S4194304x1, .f32⟩
  | .hbm, ⟨85, _⟩ => ⟨S32x131072x1, .f32⟩
  | .hbm, ⟨86, _⟩ => ⟨S_, .i32⟩
  | .hbm, ⟨87, _⟩ => ⟨S4194304, .i32⟩
  | .hbm, ⟨88, _⟩ => ⟨S4194304, .i1⟩
  | .hbm, ⟨89, _⟩ => ⟨S_, .i32⟩
  | .hbm, ⟨90, _⟩ => ⟨S4194304, .i32⟩
  | .hbm, ⟨91, _⟩ => ⟨S4194304, .i32⟩
  | .hbm, ⟨92, _⟩ => ⟨S4194304, .i32⟩
  | .hbm, ⟨93, _⟩ => ⟨S4194304x1, .i32⟩
  | .hbm, ⟨94, _⟩ => ⟨S1, .i32⟩
  | .hbm, ⟨95, _⟩ => ⟨S_, .i32⟩
  | .hbm, ⟨96, _⟩ => ⟨S4194304x1, .i32⟩
  | .hbm, ⟨97, _⟩ => ⟨S4194304x1, .i1⟩
  | .hbm, ⟨98, _⟩ => ⟨S1x1, .i32⟩
  | .hbm, ⟨99, _⟩ => ⟨S4194304x1, .i32⟩
  | .hbm, ⟨100, _⟩ => ⟨S4194304x1, .i1⟩
  | .hbm, ⟨101, _⟩ => ⟨S4194304x1, .i1⟩
  | .hbm, ⟨102, _⟩ => ⟨S_, .i1⟩
  | .hbm, ⟨103, _⟩ => ⟨S4194304, .i1⟩
  | .hbm, ⟨104, _⟩ => ⟨S4194304x1, .f32⟩
  | .hbm, ⟨105, _⟩ => ⟨S4194304x1, .i1⟩
  | .hbm, ⟨106, _⟩ => ⟨S_, .f32⟩
  | .hbm, ⟨107, _⟩ => ⟨S4194304x1, .f32⟩
  | .hbm, ⟨108, _⟩ => ⟨S4194304x1, .f32⟩
  | .hbm, ⟨109, _⟩ => ⟨S32x131072x1, .f32⟩
  | .hbm, ⟨110, _⟩ => ⟨S32x131072, .i1⟩
  | .hbm, ⟨111, _⟩ => ⟨S32x131072, .i32⟩
  | .hbm, ⟨112, _⟩ => ⟨S32x131072, .i1⟩
  | .hbm, ⟨113, _⟩ => ⟨S32x131072, .i32⟩
  | .hbm, ⟨114, _⟩ => ⟨S32x1, .f32⟩
  | .hbm, ⟨115, _⟩ => ⟨S32x131072x3, .f32⟩
  | .hbm, ⟨116, _⟩ => ⟨S32x131072x1, .f32⟩
  | .hbm, ⟨117, _⟩ => ⟨S32x131072x1, .f32⟩
  | .hbm, ⟨118, _⟩ => ⟨S8x4x131072x3, .f32⟩
  | .hbm, ⟨119, _⟩ => ⟨S8x4x131072x1, .f32⟩
  | .hbm, ⟨120, _⟩ => ⟨S8x4x131072x1, .f32⟩
  | .local _ .vmem, ⟨0, _⟩ => ⟨S32x128x3, .f32⟩
  | .local _ .vmem, ⟨1, _⟩ => ⟨S32x128x3, .f32⟩
  | .local _ .vmem, ⟨2, _⟩ => ⟨S32x128x1, .f32⟩
  | .local _ .vmem, ⟨3, _⟩ => ⟨S32x128x1, .f32⟩
  | .local _ .vmem, ⟨4, _⟩ => ⟨S32x128x1, .f32⟩
  | .local _ .vmem, ⟨5, _⟩ => ⟨S32x128x1, .f32⟩
  | .local _ .vmem, ⟨6, _⟩ => ⟨S32x128, .i32⟩
  | .local _ .vmem, ⟨7, _⟩ => ⟨S32x128, .i32⟩
  | .local _ .vmem, ⟨8, _⟩ => ⟨S32x128, .i32⟩
  | .local _ .vmem, ⟨9, _⟩ => ⟨S32x128, .i32⟩
  | .local _ .vmem, ⟨10, _⟩ => ⟨S32x1, .f32⟩
  | .local _ .vmem, ⟨11, _⟩ => ⟨S32x128x3, .f32⟩
  | .local _ .vmem, ⟨12, _⟩ => ⟨S32x128x3, .f32⟩
  | .local _ .vmem, ⟨13, _⟩ => ⟨S32x128x1, .f32⟩
  | .local _ .vmem, ⟨14, _⟩ => ⟨S32x128x1, .f32⟩
  | .local _ .vmem, ⟨15, _⟩ => ⟨S32x128x1, .f32⟩
  | .local _ .vmem, ⟨16, _⟩ => ⟨S32x128x1, .f32⟩
  | _, _ => ⟨S1258578x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_call0_c : Ref sig .tc := ⟨.hbm, 9, rfl⟩
abbrev main_call0_call0_v0 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v6 : Ref sig .tc := ⟨.hbm, 22, rfl⟩
abbrev main_v7 : Ref sig .tc := ⟨.hbm, 23, rfl⟩
abbrev main_call2_call0_c : Ref sig .tc := ⟨.hbm, 24, rfl⟩
abbrev main_call2_call0_v0 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_c_3 : Ref sig .tc := ⟨.hbm, 30, rfl⟩
abbrev main_c_4 : Ref sig .tc := ⟨.hbm, 31, rfl⟩
abbrev main_call3_v0 : Ref sig .tc := ⟨.hbm, 32, rfl⟩
abbrev main_call3_v1 : Ref sig .tc := ⟨.hbm, 33, rfl⟩
abbrev main_call3_v2 : Ref sig .tc := ⟨.hbm, 34, rfl⟩
abbrev main_call3_v3 : Ref sig .tc := ⟨.hbm, 35, rfl⟩
abbrev main_call3_v4 : Ref sig .tc := ⟨.hbm, 36, rfl⟩
abbrev main_v11 : Ref sig .tc := ⟨.hbm, 37, rfl⟩
abbrev main_call4_c : Ref sig .tc := ⟨.hbm, 38, rfl⟩
abbrev main_call4_v0 : Ref sig .tc := ⟨.hbm, 39, rfl⟩
abbrev main_call4_v1 : Ref sig .tc := ⟨.hbm, 40, rfl⟩
abbrev main_call4_c_0 : Ref sig .tc := ⟨.hbm, 41, rfl⟩
abbrev main_call4_v2 : Ref sig .tc := ⟨.hbm, 42, rfl⟩
abbrev main_call4_v3 : Ref sig .tc := ⟨.hbm, 43, rfl⟩
abbrev main_call4_v4 : Ref sig .tc := ⟨.hbm, 44, rfl⟩
abbrev main_call4_v5 : Ref sig .tc := ⟨.hbm, 45, rfl⟩
abbrev main_call4_c_1 : Ref sig .tc := ⟨.hbm, 46, rfl⟩
abbrev main_call4_c_2 : Ref sig .tc := ⟨.hbm, 47, rfl⟩
abbrev main_call4_v6 : Ref sig .tc := ⟨.hbm, 48, rfl⟩
abbrev main_call4_v7 : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_v11 : Ref sig .tc := ⟨.hbm, 53, rfl⟩
abbrev main_call4_c_3 : Ref sig .tc := ⟨.hbm, 54, rfl⟩
abbrev main_call4_v12 : Ref sig .tc := ⟨.hbm, 55, rfl⟩
abbrev main_call4_v13 : Ref sig .tc := ⟨.hbm, 56, rfl⟩
abbrev main_call4_v14 : Ref sig .tc := ⟨.hbm, 57, rfl⟩
abbrev main_call4_cst : Ref sig .tc := ⟨.hbm, 58, rfl⟩
abbrev main_call4_v15 : Ref sig .tc := ⟨.hbm, 59, rfl⟩
abbrev main_v12 : Ref sig .tc := ⟨.hbm, 60, rfl⟩
abbrev main_v13 : Ref sig .tc := ⟨.hbm, 61, rfl⟩
abbrev main_call5_c : Ref sig .tc := ⟨.hbm, 62, rfl⟩
abbrev main_call5_v0 : Ref sig .tc := ⟨.hbm, 63, rfl⟩
abbrev main_call5_v1 : Ref sig .tc := ⟨.hbm, 64, rfl⟩
abbrev main_call5_c_0 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_call5_v5 : Ref sig .tc := ⟨.hbm, 69, rfl⟩
abbrev main_call5_c_1 : Ref sig .tc := ⟨.hbm, 70, rfl⟩
abbrev main_call5_c_2 : Ref sig .tc := ⟨.hbm, 71, rfl⟩
abbrev main_call5_v6 : Ref sig .tc := ⟨.hbm, 72, rfl⟩
abbrev main_call5_v7 : Ref sig .tc := ⟨.hbm, 73, rfl⟩
abbrev main_call5_v8 : Ref sig .tc := ⟨.hbm, 74, rfl⟩
abbrev main_call5_v9 : Ref sig .tc := ⟨.hbm, 75, rfl⟩
abbrev main_call5_v10 : Ref sig .tc := ⟨.hbm, 76, rfl⟩
abbrev main_call5_v11 : Ref sig .tc := ⟨.hbm, 77, rfl⟩
abbrev main_call5_c_3 : Ref sig .tc := ⟨.hbm, 78, rfl⟩
abbrev main_call5_v12 : Ref sig .tc := ⟨.hbm, 79, rfl⟩
abbrev main_call5_v13 : Ref sig .tc := ⟨.hbm, 80, rfl⟩
abbrev main_call5_v14 : Ref sig .tc := ⟨.hbm, 81, rfl⟩
abbrev main_call5_cst : Ref sig .tc := ⟨.hbm, 82, rfl⟩
abbrev main_call5_v15 : Ref sig .tc := ⟨.hbm, 83, rfl⟩
abbrev main_v14 : Ref sig .tc := ⟨.hbm, 84, rfl⟩
abbrev main_v15 : Ref sig .tc := ⟨.hbm, 85, rfl⟩
abbrev main_call6_c : Ref sig .tc := ⟨.hbm, 86, rfl⟩
abbrev main_call6_v0 : Ref sig .tc := ⟨.hbm, 87, rfl⟩
abbrev main_call6_v1 : Ref sig .tc := ⟨.hbm, 88, rfl⟩
abbrev main_call6_c_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_v5 : Ref sig .tc := ⟨.hbm, 93, rfl⟩
abbrev main_call6_c_1 : Ref sig .tc := ⟨.hbm, 94, rfl⟩
abbrev main_call6_c_2 : Ref sig .tc := ⟨.hbm, 95, rfl⟩
abbrev main_call6_v6 : Ref sig .tc := ⟨.hbm, 96, rfl⟩
abbrev main_call6_v7 : Ref sig .tc := ⟨.hbm, 97, rfl⟩
abbrev main_call6_v8 : Ref sig .tc := ⟨.hbm, 98, rfl⟩
abbrev main_call6_v9 : Ref sig .tc := ⟨.hbm, 99, rfl⟩
abbrev main_call6_v10 : Ref sig .tc := ⟨.hbm, 100, rfl⟩
abbrev main_call6_v11 : Ref sig .tc := ⟨.hbm, 101, rfl⟩
abbrev main_call6_c_3 : Ref sig .tc := ⟨.hbm, 102, rfl⟩
abbrev main_call6_v12 : Ref sig .tc := ⟨.hbm, 103, rfl⟩
abbrev main_call6_v13 : Ref sig .tc := ⟨.hbm, 104, rfl⟩
abbrev main_call6_v14 : Ref sig .tc := ⟨.hbm, 105, rfl⟩
abbrev main_call6_cst : Ref sig .tc := ⟨.hbm, 106, rfl⟩
abbrev main_call6_v15 : Ref sig .tc := ⟨.hbm, 107, rfl⟩
abbrev main_v16 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23_0 : Ref sig .tc := ⟨.hbm, 115, rfl⟩
abbrev main_v23_1 : Ref sig .tc := ⟨.hbm, 116, rfl⟩
abbrev main_v23_2 : Ref sig .tc := ⟨.hbm, 117, rfl⟩
abbrev main_v24 : Ref sig .tc := ⟨.hbm, 118, rfl⟩
abbrev main_v25 : Ref sig .tc := ⟨.hbm, 119, rfl⟩
abbrev main_v26 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x128x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S8x4x131072_S4194304 : S8x4x131072.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  bcast_S4194304_S4194304x3_0 : S4194304.BroadcastsInDim S4194304x3 (![0] : Fin 1 → Fin S4194304x3.rank)
  bcast_S_S4194304x3 : S_.BroadcastsInDim S4194304x3 (![] : Fin 0 → Fin S4194304x3.rank)
  shapeCasts_S4194304x3_S32x131072x3 : S4194304x3.ShapeCasts S32x131072x3
  shapeCasts_S4194304x1_S32x131072x1 : S4194304x1.ShapeCasts S32x131072x1
  shapeCasts_S8x4x131072_S32x131072 : S8x4x131072.ShapeCasts S32x131072
  shapeCasts_S8x4_S32x1 : S8x4.ShapeCasts S32x1
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x128x3_S32x128x1_0_0_0 : ∀ a, (![0, 0, 0] : Fin 3 → Nat) a + S32x128x1.size a ≤ S32x128x3.size a
  h_S32x128x1 : 0 < S32x128x1.numel
  shapeCasts_S32x128x1_S32x128 : S32x128x1.ShapeCasts S32x128
  broadcasts_S32x1_S32x128 : S32x1.Broadcasts S32x128
  shapeCasts_S32x128_S32x128x1 : S32x128.ShapeCasts S32x128x1
  inb_S32x128x3_S32x128x1_0_0_1 : ∀ a, (![0, 0, 1] : Fin 3 → Nat) a + S32x128x1.size a ≤ S32x128x3.size a
  inb_S32x128x3_S32x128x1_0_0_2 : ∀ a, (![0, 0, 2] : Fin 3 → Nat) a + S32x128x1.size a ≤ S32x128x3.size a
  inb_S32x128x1_S32x128x1_0_0_0 : ∀ a, (![0, 0, 0] : Fin 3 → Nat) a + S32x128x1.size a ≤ S32x128x1.size a
  shapeCasts_S32x131072x3_S8x4x131072x3 : S32x131072x3.ShapeCasts S8x4x131072x3
  shapeCasts_S32x131072x1_S8x4x131072x1 : S32x131072x1.ShapeCasts S8x4x131072x1
  gather_S1258578x3_S4194304x1_S4194304x3_1_0_n_n_0_1_13_wf : GatherDims.WF S1258578x3 S4194304x1 S4194304x3 [1] [0] [] [0] [] 1 ![1, 3]
  gather_S1258578x1_S4194304x1_S4194304x1_1_0_n_n_0_1_11_wf : GatherDims.WF S1258578x1 S4194304x1 S4194304x1 [1] [0] [] [0] [] 1 ![1, 1]
  gather_S1259650x1_S4194304x1_S4194304x1_1_0_n_n_0_1_11_wf : GatherDims.WF S1259650x1 S4194304x1 S4194304x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x3.size a ≤ S32x131072x3.size a
  hwx0_0 : ∀ i : grid0.Coords, EltTy.bits .f32 = 32 ∨ (Rect.block (s := S32x131072x3) S32x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x1.size a ≤ S32x131072x1.size a
  hwx0_1 : ∀ i : grid0.Coords, EltTy.bits .f32 = 32 ∨ (Rect.block (s := S32x131072x1) S32x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x1.size a ≤ S32x131072x1.size a
  hwx0_2 : ∀ i : grid0.Coords, EltTy.bits .f32 = 32 ∨ (Rect.block (s := S32x131072x1) S32x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x131072.size a
  hwx0_3 : ∀ i : grid0.Coords, EltTy.bits .i32 = 32 ∨ (Rect.block (s := S32x131072) S32x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x131072.size a
  hwx0_4 : ∀ i : grid0.Coords, EltTy.bits .i32 = 32 ∨ (Rect.block (s := S32x131072) S32x128.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128x3.size a ≤ S32x131072x3.size a
  hwx0_6 : ∀ i : grid0.Coords, EltTy.bits .f32 = 32 ∨ (Rect.block (s := S32x131072x3) S32x128x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x1.size a ≤ S32x131072x1.size a
  hwx0_7 : ∀ i : grid0.Coords, EltTy.bits .f32 = 32 ∨ (Rect.block (s := S32x131072x1) S32x128x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128x1.size a ≤ S32x131072x1.size a
  hwx0_8 : ∀ i : grid0.Coords, EltTy.bits .f32 = 32 ∨ (Rect.block (s := S32x131072x1) S32x128x1.size (cc0_transform_8 i) (hinb0_8 i)).WholeWords (EltTy.packing .f32)

variable [Facts₀]

def gather_S1258578x3_S4194304x1_S4194304x3_1_0_n_n_0_1_13 : GatherDims S1258578x3 S4194304x1 S4194304x3 where
  offsetDims := [1]
  collapsedSliceDims := [0]
  operandBatchingDims := []
  startIndicesBatchingDims := []
  startIndexMap := [0]
  indexVectorDim := 1
  sliceSizes := ![1, 3]
  wf := gather_S1258578x3_S4194304x1_S4194304x3_1_0_n_n_0_1_13_wf
def gather_S1258578x1_S4194304x1_S4194304x1_1_0_n_n_0_1_11 : GatherDims S1258578x1 S4194304x1 S4194304x1 where
  offsetDims := [1]
  collapsedSliceDims := [0]
  operandBatchingDims := []
  startIndicesBatchingDims := []
  startIndexMap := [0]
  indexVectorDim := 1
  sliceSizes := ![1, 1]
  wf := gather_S1258578x1_S4194304x1_S4194304x1_1_0_n_n_0_1_11_wf
def gather_S1259650x1_S4194304x1_S4194304x1_1_0_n_n_0_1_11 : GatherDims S1259650x1 S4194304x1 S4194304x1 where
  offsetDims := [1]
  collapsedSliceDims := [0]
  operandBatchingDims := []
  startIndicesBatchingDims := []
  startIndexMap := [0]
  indexVectorDim := 1
  sliceSizes := ![1, 1]
  wf := gather_S1259650x1_S4194304x1_S4194304x1_1_0_n_n_0_1_11_wf

abbrev win0_0 : Pipeline.Window sig grid0 :=
  Pipeline.Window.ofSpec (Memref.whole main_v13) S32x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S32x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S32x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_0) S32x128x3.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_1) S32x128x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_2) S32x128x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1258578x3 : Shape := ⟨2, ![1258578, 3]⟩
abbrev S1258578x1 : Shape := ⟨2, ![1258578, 1]⟩
abbrev S1259650x1 : Shape := ⟨2, ![1259650, 1]⟩
abbrev S8x4 : Shape := ⟨2, ![8, 4]⟩
abbrev S8x4x131072 : Shape := ⟨3, ![8, 4, 131072]⟩
abbrev S_ : Shape := ⟨0, ![]⟩
abbrev S8x4x1x1 : Shape := ⟨4, ![8, 4, 1, 1]⟩
abbrev S8x4x131072x1 : Shape := ⟨4, ![8, 4, 131072, 1]⟩
abbrev S4194304 : Shape := ⟨1, ![4194304]⟩
abbrev S4194304x1 : Shape := ⟨2, ![4194304, 1]⟩
abbrev S1 : Shape := ⟨1, ![1]⟩
abbrev S1x1 : Shape := ⟨2, ![1, 1]⟩
abbrev S4194304x3 : Shape := ⟨2, ![4194304, 3]⟩
abbrev S8x4x131072x3 : Shape := ⟨4, ![8, 4, 131072, 3]⟩

abbrev nBuf : Space → Nat
  | .hbm => 162
  | .vmem => 0
  | .smem => 0
  | _ => 0

abbrev hbmTy0_0 (i : Nat) : BufTy := match i % 128 with
  | 0 => ⟨S1258578x3, .f32⟩
  | 1 => ⟨S1258578x1, .f32⟩
  | 2 => ⟨S1259650x1, .f32⟩
  | 3 => ⟨S8x4, .f32⟩
  | 4 => ⟨S8x4x131072, .i1⟩
  | 5 => ⟨S8x4x131072, .i1⟩
  | 6 => ⟨S_, .f32⟩
  | 7 => ⟨S8x4, .f32⟩
  | 8 => ⟨S8x4, .f32⟩
  | 9 => ⟨S8x4x1x1, .f32⟩
  | 10 => ⟨S8x4x1x1, .f32⟩
  | 11 => ⟨S8x4x131072x1, .i1⟩
  | 12 => ⟨S8x4x131072x1, .i1⟩
  | 13 => ⟨S4194304, .i1⟩
  | 14 => ⟨S4194304, .i32⟩
  | 15 => ⟨S_, .i32⟩
  | 16 => ⟨S_, .i32⟩
  | 17 => ⟨S4194304, .i32⟩
  | 18 => ⟨S_, .i32⟩
  | 19 => ⟨S4194304, .i32⟩
  | 20 => ⟨S4194304, .i32⟩
  | 21 => ⟨S_, .i32⟩
  | 22 => ⟨S_, .i32⟩
  | 23 => ⟨S_, .i32⟩
  | 24 => ⟨S4194304, .i32⟩
  | 25 => ⟨S4194304, .i32⟩
  | 26 => ⟨S_, .i32⟩
  | 27 => ⟨S4194304, .i32⟩
  | 28 => ⟨S4194304, .i32⟩
  | 29 => ⟨S_, .i32⟩
  | 30 => ⟨S4194304, .i32⟩
  | 31 => ⟨S4194304, .i1⟩
  | 32 => ⟨S_, .i32⟩
  | 33 => ⟨S4194304, .i32⟩
  | 34 => ⟨S4194304, .i32⟩
  | 35 => ⟨S4194304, .i32⟩
  | 36 => ⟨S4194304x1, .i32⟩
  | 37 => ⟨S1, .i32⟩
  | 38 => ⟨S_, .i32⟩
  | 39 => ⟨S4194304x1, .i32⟩
  | 40 => ⟨S4194304x1, .i1⟩
  | 41 => ⟨S1x1, .i32⟩
  | 42 => ⟨S4194304x1, .i32⟩
  | 43 => ⟨S4194304x1, .i1⟩
  | 44 => ⟨S4194304x1, .i1⟩
  | 45 => ⟨S_, .i1⟩
  | 46 => ⟨S4194304, .i1⟩
  | 47 => ⟨S4194304x3, .f32⟩
  | 48 => ⟨S4194304x3, .i1⟩
  | 49 => ⟨S_, .f32⟩
  | 50 => ⟨S4194304x3, .f32⟩
  | 51 => ⟨S4194304x3, .f32⟩
  | 52 => ⟨S8x4x131072x3, .f32⟩
  | 53 => ⟨S8x4x131072x3, .f32⟩
  | 54 => ⟨S8x4x131072x3, .f32⟩
  | 55 => ⟨S_, .f32⟩
  | 56 => ⟨S_, .f32⟩
  | 57 => ⟨S8x4x131072x3, .i1⟩
  | 58 => ⟨S8x4x131072x3, .f32⟩
  | 59 => ⟨S8x4x131072x3, .f32⟩
  | 60 => ⟨S4194304, .i1⟩
  | 61 => ⟨S4194304, .i32⟩
  | 62 => ⟨S_, .i32⟩
  | 63 => ⟨S_, .i32⟩
  | 64 => ⟨S4194304, .i32⟩
  | 65 => ⟨S_, .i32⟩
  | 66 => ⟨S4194304, .i32⟩
  | 67 => ⟨S4194304, .i32⟩
  | 68 => ⟨S_, .i32⟩
  | 69 => ⟨S_, .i32⟩
  | 70 => ⟨S_, .i32⟩
  | 71 => ⟨S4194304, .i32⟩
  | 72 => ⟨S4194304, .i32⟩
  | 73 => ⟨S_, .i32⟩
  | 74 => ⟨S4194304, .i32⟩
  | 75 => ⟨S4194304, .i32⟩
  | 76 => ⟨S_, .i32⟩
  | 77 => ⟨S4194304, .i32⟩
  | 78 => ⟨S4194304, .i1⟩
  | 79 => ⟨S_, .i32⟩
  | 80 => ⟨S4194304, .i32⟩
  | 81 => ⟨S4194304, .i32⟩
  | 82 => ⟨S4194304, .i32⟩
  | 83 => ⟨S4194304x1, .i32⟩
  | 84 => ⟨S1, .i32⟩
  | 85 => ⟨S_, .i32⟩
  | 86 => ⟨S4194304x1, .i32⟩
  | 87 => ⟨S4194304x1, .i1⟩
  | 88 => ⟨S1x1, .i32⟩
  | 89 => ⟨S4194304x1, .i32⟩
  | 90 => ⟨S4194304x1, .i1⟩
  | 91 => ⟨S4194304x1, .i1⟩
  | 92 => ⟨S_, .i1⟩
  | 93 => ⟨S4194304, .i1⟩
  | 94 => ⟨S4194304x1, .f32⟩
  | 95 => ⟨S4194304x1, .i1⟩
  | 96 => ⟨S_, .f32⟩
  | 97 => ⟨S4194304x1, .f32⟩
  | 98 => ⟨S4194304x1, .f32⟩
  | 99 => ⟨S8x4x131072x1, .f32⟩
  | 100 => ⟨S8x4x131072x1, .f32⟩
  | 101 => ⟨S8x4x131072x1, .f32⟩
  | 102 => ⟨S_, .f32⟩
  | 103 => ⟨S8x4x1x1, .f32⟩
  | 104 => ⟨S8x4x1x1, .f32⟩
  | 105 => ⟨S8x4x131072x1, .f32⟩
  | 106 => ⟨S8x4x131072x1, .f32⟩
  | 107 => ⟨S_, .f32⟩
  | 108 => ⟨S_, .f32⟩
  | 109 => ⟨S8x4x131072x1, .f32⟩
  | 110 => ⟨S8x4x131072x1, .f32⟩
  | 111 => ⟨S4194304, .i1⟩
  | 112 => ⟨S4194304, .i32⟩
  | 113 => ⟨S_, .i32⟩
  | 114 => ⟨S_, .i32⟩
  | 115 => ⟨S4194304, .i32⟩
  | 116 => ⟨S_, .i32⟩
  | 117 => ⟨S4194304, .i32⟩
  | 118 => ⟨S4194304, .i32⟩
  | 119 => ⟨S_, .i32⟩
  | 120 => ⟨S_, .i32⟩
  | 121 => ⟨S_, .i32⟩
  | 122 => ⟨S4194304, .i32⟩
  | 123 => ⟨S4194304, .i32⟩
  | 124 => ⟨S_, .i32⟩
  | 125 => ⟨S4194304, .i32⟩
  | 126 => ⟨S4194304, .i32⟩
  | 127 => ⟨S_, .i32⟩
  | _ => ⟨S1258578x3, .f32⟩

abbrev hbmTy0_1 (i : Nat) : BufTy := match i % 128 with
  | 0 => ⟨S4194304, .i32⟩
  | 1 => ⟨S4194304, .i1⟩
  | 2 => ⟨S_, .i32⟩
  | 3 => ⟨S4194304, .i32⟩
  | 4 => ⟨S4194304, .i32⟩
  | 5 => ⟨S4194304, .i32⟩
  | 6 => ⟨S4194304x1, .i32⟩
  | 7 => ⟨S1, .i32⟩
  | 8 => ⟨S_, .i32⟩
  | 9 => ⟨S4194304x1, .i32⟩
  | 10 => ⟨S4194304x1, .i1⟩
  | 11 => ⟨S1x1, .i32⟩
  | 12 => ⟨S4194304x1, .i32⟩
  | 13 => ⟨S4194304x1, .i1⟩
  | 14 => ⟨S4194304x1, .i1⟩
  | 15 => ⟨S_, .i1⟩
  | 16 => ⟨S4194304, .i1⟩
  | 17 => ⟨S4194304x1, .f32⟩
  | 18 => ⟨S4194304x1, .i1⟩
  | 19 => ⟨S_, .f32⟩
  | 20 => ⟨S4194304x1, .f32⟩
  | 21 => ⟨S4194304x1, .f32⟩
  | 22 => ⟨S8x4x131072x1, .f32⟩
  | 23 => ⟨S8x4x131072x1, .f32⟩
  | 24 => ⟨S8x4x131072x1, .f32⟩
  | 25 => ⟨S_, .f32⟩
  | 26 => ⟨S8x4x1x1, .f32⟩
  | 27 => ⟨S8x4x1x1, .f32⟩
  | 28 => ⟨S8x4x131072x1, .f32⟩
  | 29 => ⟨S8x4x131072x1, .f32⟩
  | 30 => ⟨S_, .f32⟩
  | 31 => ⟨S_, .f32⟩
  | 32 => ⟨S8x4x131072x1, .f32⟩
  | 33 => ⟨S8x4x131072x1, .f32⟩
  | _ => ⟨S1258578x3, .f32⟩

abbrev hbmTy (i : Nat) : BufTy := match i / 128 with
  | 0 => hbmTy0_0 i
  | 1 => hbmTy0_1 i
  | _ => ⟨S1258578x3, .f32⟩

abbrev bufTy : (tb : Table) → Fin (tcTables nBuf tb) → BufTy
  | .hbm, ⟨i, _⟩ => hbmTy i
  | _, _ => ⟨S1258578x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_call0_c : Ref sig .tc := ⟨.hbm, 15, rfl⟩
abbrev main_call0_call0_v0 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_c_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v11 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_v14 : Ref sig .tc := ⟨.hbm, 48, rfl⟩
abbrev main_call2_cst : Ref sig .tc := ⟨.hbm, 49, rfl⟩
abbrev main_call2_v15 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_2 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_call4_call0_c : Ref sig .tc := ⟨.hbm, 62, rfl⟩
abbrev main_call4_call0_v0 : Ref sig .tc := ⟨.hbm, 63, rfl⟩
abbrev main_v19 : Ref sig .tc := ⟨.hbm, 64, rfl⟩
abbrev main_c_3 : Ref sig .tc := ⟨.hbm, 65, rfl⟩
abbrev main_v20 : Ref sig .tc := ⟨.hbm, 66, rfl⟩
abbrev main_v21 : Ref sig .tc := ⟨.hbm, 67, rfl⟩
abbrev main_c_4 : Ref sig .tc := ⟨.hbm, 68, rfl⟩
abbrev main_c_5 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_v22 : Ref sig .tc := ⟨.hbm, 75, rfl⟩
abbrev main_call6_c : Ref sig .tc := ⟨.hbm, 76, rfl⟩
abbrev main_call6_v0 : Ref sig .tc := ⟨.hbm, 77, rfl⟩
abbrev main_call6_v1 : Ref sig .tc := ⟨.hbm, 78, rfl⟩
abbrev main_call6_c_0 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_call6_v5 : Ref sig .tc := ⟨.hbm, 83, rfl⟩
abbrev main_call6_c_1 : Ref sig .tc := ⟨.hbm, 84, rfl⟩
abbrev main_call6_c_2 : Ref sig .tc := ⟨.hbm, 85, rfl⟩
abbrev main_call6_v6 : Ref sig .tc := ⟨.hbm, 86, rfl⟩
abbrev main_call6_v7 : Ref sig .tc := ⟨.hbm, 87, rfl⟩
abbrev main_call6_v8 : Ref sig .tc := ⟨.hbm, 88, rfl⟩
abbrev main_call6_v9 : Ref sig .tc := ⟨.hbm, 89, rfl⟩
abbrev main_call6_v10 : Ref sig .tc := ⟨.hbm, 90, rfl⟩
abbrev main_call6_v11 : Ref sig .tc := ⟨.hbm, 91, rfl⟩
abbrev main_call6_c_3 : Ref sig .tc := ⟨.hbm, 92, rfl⟩
abbrev main_call6_v12 : Ref sig .tc := ⟨.hbm, 93, rfl⟩
abbrev main_call6_v13 : Ref sig .tc := ⟨.hbm, 94, rfl⟩
abbrev main_call6_v14 : Ref sig .tc := ⟨.hbm, 95, rfl⟩
abbrev main_call6_cst : Ref sig .tc := ⟨.hbm, 96, rfl⟩
abbrev main_call6_v15 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_cst_6 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_cst_7 : Ref sig .tc := ⟨.hbm, 107, rfl⟩
abbrev main_call7_v0 : Ref sig .tc := ⟨.hbm, 108, rfl⟩
abbrev main_call7_v1 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_call8_call0_c : Ref sig .tc := ⟨.hbm, 113, rfl⟩
abbrev main_call8_call0_v0 : Ref sig .tc := ⟨.hbm, 114, rfl⟩
abbrev main_v34 : Ref sig .tc := ⟨.hbm, 115, rfl⟩
abbrev main_c_8 : Ref sig .tc := ⟨.hbm, 116, rfl⟩
abbrev main_v35 : Ref sig .tc := ⟨.hbm, 117, rfl⟩
abbrev main_v36 : Ref sig .tc := ⟨.hbm, 118, rfl⟩
abbrev main_c_9 : Ref sig .tc := ⟨.hbm, 119, rfl⟩
abbrev main_c_10 : Ref sig .tc := ⟨.hbm, 120, rfl⟩
abbrev main_call9_v0 : Ref sig .tc := ⟨.hbm, 121, rfl⟩
abbrev main_call9_v1 : Ref sig .tc := ⟨.hbm, 122, rfl⟩
abbrev main_call9_v2 : Ref sig .tc := ⟨.hbm, 123, rfl⟩
abbrev main_call9_v3 : Ref sig .tc := ⟨.hbm, 124, rfl⟩
abbrev main_call9_v4 : Ref sig .tc := ⟨.hbm, 125, rfl⟩
abbrev main_v37 : Ref sig .tc := ⟨.hbm, 126, rfl⟩
abbrev main_call10_c : Ref sig .tc := ⟨.hbm, 127, rfl⟩
abbrev main_call10_v0 : Ref sig .tc := ⟨.hbm, 128, rfl⟩
abbrev main_call10_v1 : Ref sig .tc := ⟨.hbm, 129, rfl⟩
abbrev main_call10_c_0 : Ref sig .tc := ⟨.hbm, 130, rfl⟩
abbrev main_call10_v2 : Ref sig .tc := ⟨.hbm, 131, rfl⟩
abbrev main_call10_v3 : Ref sig .tc := ⟨.hbm, 132, rfl⟩
abbrev main_call10_v4 : Ref sig .tc := ⟨.hbm, 133, rfl⟩
abbrev main_call10_v5 : Ref sig .tc := ⟨.hbm, 134, rfl⟩
abbrev main_call10_c_1 : Ref sig .tc := ⟨.hbm, 135, rfl⟩
abbrev main_call10_c_2 : Ref sig .tc := ⟨.hbm, 136, rfl⟩
abbrev main_call10_v6 : Ref sig .tc := ⟨.hbm, 137, rfl⟩
abbrev main_call10_v7 : Ref sig .tc := ⟨.hbm, 138, rfl⟩
abbrev main_call10_v8 : Ref sig .tc := ⟨.hbm, 139, rfl⟩
abbrev main_call10_v9 : Ref sig .tc := ⟨.hbm, 140, rfl⟩
abbrev main_call10_v10 : Ref sig .tc := ⟨.hbm, 141, rfl⟩
abbrev main_call10_v11 : Ref sig .tc := ⟨.hbm, 142, rfl⟩
abbrev main_call10_c_3 : Ref sig .tc := ⟨.hbm, 143, rfl⟩
abbrev main_call10_v12 : Ref sig .tc := ⟨.hbm, 144, rfl⟩
abbrev main_call10_v13 : Ref sig .tc := ⟨.hbm, 145, rfl⟩
abbrev main_call10_v14 : Ref sig .tc := ⟨.hbm, 146, rfl⟩
abbrev main_call10_cst : Ref sig .tc := ⟨.hbm, 147, rfl⟩
abbrev main_call10_v15 : Ref sig .tc := ⟨.hbm, 148, rfl⟩
abbrev main_v38 : Ref sig .tc := ⟨.hbm, 149, rfl⟩
abbrev main_v39 : Ref sig .tc := ⟨.hbm, 150, rfl⟩
abbrev main_v40 : Ref sig .tc := ⟨.hbm, 151, rfl⟩
abbrev main_v41 : Ref sig .tc := ⟨.hbm, 152, rfl⟩
abbrev main_cst_11 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_cst_12 : Ref sig .tc := ⟨.hbm, 158, rfl⟩
abbrev main_call11_v0 : Ref sig .tc := ⟨.hbm, 159, rfl⟩
abbrev main_call11_v1 : Ref sig .tc := ⟨.hbm, 160, rfl⟩
abbrev main_v46 : Ref sig .tc := ⟨.hbm, 161, rfl⟩

abbrev nD : Nat := 1
abbrev τ : Topo := Topo.v7x

variable {F : FTy → Type} [FloatOps F]

class Facts₀ : Prop where
  bcast_S_S8x4 : S_.BroadcastsInDim S8x4 (![] : Fin 0 → Fin S8x4.rank)
  bcast_S8x4_S8x4x1x1_0_1 : S8x4.BroadcastsInDim S8x4x1x1 (![0, 1] : Fin 2 → Fin S8x4x1x1.rank)
  bcast_S8x4x131072_S8x4x131072x1_0_1_2 : S8x4x131072.BroadcastsInDim S8x4x131072x1 (![0, 1, 2] : Fin 3 → Fin S8x4x131072x1.rank)
  shapeCasts_S8x4x131072_S4194304 : S8x4x131072.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  bcast_S4194304_S4194304x3_0 : S4194304.BroadcastsInDim S4194304x3 (![0] : Fin 1 → Fin S4194304x3.rank)
  bcast_S_S4194304x3 : S_.BroadcastsInDim S4194304x3 (![] : Fin 0 → Fin S4194304x3.rank)
  shapeCasts_S4194304x3_S8x4x131072x3 : S4194304x3.ShapeCasts S8x4x131072x3
  bcast_S8x4x1x1_S8x4x131072x3_0_1_2_3 : S8x4x1x1.BroadcastsInDim S8x4x131072x3 (![0, 1, 2, 3] : Fin 4 → Fin S8x4x131072x3.rank)
  bcast_S8x4x131072x1_S8x4x131072x3_0_1_2_3 : S8x4x131072x1.BroadcastsInDim S8x4x131072x3 (![0, 1, 2, 3] : Fin 4 → Fin S8x4x131072x3.rank)
  bcast_S_S8x4x131072x3 : S_.BroadcastsInDim S8x4x131072x3 (![] : Fin 0 → Fin S8x4x131072x3.rank)
  shapeCasts_S4194304x1_S8x4x131072x1 : S4194304x1.ShapeCasts S8x4x131072x1
  bcast_S8x4x1x1_S8x4x131072x1_0_1_2_3 : S8x4x1x1.BroadcastsInDim S8x4x131072x1 (![0, 1, 2, 3] : Fin 4 → Fin S8x4x131072x1.rank)
  bcast_S_S8x4x1x1 : S_.BroadcastsInDim S8x4x1x1 (![] : Fin 0 → Fin S8x4x1x1.rank)
  bcast_S_S8x4x131072x1 : S_.BroadcastsInDim S8x4x131072x1 (![] : Fin 0 → Fin S8x4x131072x1.rank)
  gather_S1258578x3_S4194304x1_S4194304x3_1_0_n_n_0_1_13_wf : GatherDims.WF S1258578x3 S4194304x1 S4194304x3 [1] [0] [] [0] [] 1 ![1, 3]
  gather_S1258578x1_S4194304x1_S4194304x1_1_0_n_n_0_1_11_wf : GatherDims.WF S1258578x1 S4194304x1 S4194304x1 [1] [0] [] [0] [] 1 ![1, 1]
  gather_S1259650x1_S4194304x1_S4194304x1_1_0_n_n_0_1_11_wf : GatherDims.WF S1259650x1 S4194304x1 S4194304x1 [1] [0] [] [0] [] 1 ![1, 1]

variable [Facts₀]

def gather_S1258578x3_S4194304x1_S4194304x3_1_0_n_n_0_1_13 : GatherDims S1258578x3 S4194304x1 S4194304x3 where
  offsetDims := [1]
  collapsedSliceDims := [0]
  operandBatchingDims := []
  startIndicesBatchingDims := []
  startIndexMap := [0]
  indexVectorDim := 1
  sliceSizes := ![1, 3]
  wf := gather_S1258578x3_S4194304x1_S4194304x3_1_0_n_n_0_1_13_wf
def gather_S1258578x1_S4194304x1_S4194304x1_1_0_n_n_0_1_11 : GatherDims S1258578x1 S4194304x1 S4194304x1 where
  offsetDims := [1]
  collapsedSliceDims := [0]
  operandBatchingDims := []
  startIndicesBatchingDims := []
  startIndexMap := [0]
  indexVectorDim := 1
  sliceSizes := ![1, 1]
  wf := gather_S1258578x1_S4194304x1_S4194304x1_1_0_n_n_0_1_11_wf
def gather_S1259650x1_S4194304x1_S4194304x1_1_0_n_n_0_1_11 : GatherDims S1259650x1 S4194304x1 S4194304x1 where
  offsetDims := [1]
  collapsedSliceDims := [0]
  operandBatchingDims := []
  startIndicesBatchingDims := []
  startIndexMap := [0]
  indexVectorDim := 1
  sliceSizes := ![1, 1]
  wf := gather_S1259650x1_S4194304x1_S4194304x1_1_0_n_n_0_1_11_wf

class Facts : Prop extends Facts₀ where

variable [Facts]
-- ==== Proof.RefRun.lean ====
/-
  The reference program's run. Its @main is a straight line of host operations once each module-local
  function call is read as the callee's lines at that call's buffers: the line is cut into stretches (one per
  stretch of @main's own lines, one per call), @main is the chain of the stretches, a chain of stretches is the one
  line of their concatenation, and a straight line on a signature that scopes nothing runs to the fold of its
  operations' results over the launch contents.
-/
import proofs.«170907_j46136538694238_2_alg».proof.Proof.RefOps
import Idealize.ShloMosaic.Lib.Pipeline.Regions
import Idealize.ShloMosaic.Lib.StableHlo.Run

-- the decided enumerations over the signature's references recurse past the default depth
set_option maxRecDepth 4096

noncomputable section

namespace Cert.ReferenceIdeal.RefRun

open Idealize.ShloMosaic Idealize.ShloMosaic.StableHlo Idealize.SL.Sem Cert.ReferenceIdeal Cert.ReferenceIdeal.Gen
open Cert.ReferenceIdeal.RefOps

variable {F : FTy → Type} [FloatOps F]

/-- A chain of straight lines is the straight line of their concatenation. -/
theorem chain_map_seq {nD : Nat} {τ : Topo} {sig : RefSig} {Val : EltTy → Type} {Λ : Labels} :
    ∀ L : List (List (HloOp τ sig Val)),
      (Pipeline.chain (L.map fun l => (seq l : Prog (TpuEff nD τ sig Val Λ .tc) PUnit))) = seq L.flatten
  | [] => rfl
  | l :: L => by
    rw [List.map_cons, Pipeline.chain_cons, chain_map_seq L, List.flatten_cons, seq_append]

/-- A property of every operation of every stretch holds of every operation of the concatenation. -/
theorem forall_flatten {α : Type} {P : α → Prop} (L : List (List α)) (h : L.Forall fun l => l.Forall P) :
    L.flatten.Forall P :=
  List.forall_iff_forall_mem.mpr fun x hx => by
    obtain ⟨l, hl, hxl⟩ := List.mem_flatten.mp hx
    exact List.forall_iff_forall_mem.mp (List.forall_iff_forall_mem.mp h l hl) x hxl

/-- @main is the chain of its stretches: the functions' definitions unfold at their calls and the records at their
    fields, and both sides are one sequence of host steps. -/
theorem main_chain (c : Dev nD) : main (F := F) c = Pipeline.chain
    [seq ops0, seq ops1, seq ops2, seq ops3, seq ops4, seq ops5, seq ops6, seq ops7, seq ops8, seq ops9, seq ops10, seq ops11, seq ops12, seq ops13, seq ops14, seq ops15, seq ops16, seq ops17, seq ops18, seq ops19, seq ops20] := by
  chain_rfl

/-- @main is one straight line. -/
theorem main_eq (c : Dev nD) : main (F := F) c = seq (stretches (F := F)).flatten :=
  (main_chain c).trans (chain_map_seq (stretches (F := F)))

/-- Every operation of the line touches TensorCore references only (stretch by stretch, from the table). -/
theorem ops_sub : ((stretches (F := F)).flatten).Forall fun op => op.bufs ⊆ tcRefs τ sig :=
  forall_flatten _ (by
    simp only [List.Forall]
    exact ⟨ops0_sub, ops1_sub, ops2_sub, ops3_sub, ops4_sub, ops5_sub, ops6_sub, ops7_sub, ops8_sub, ops9_sub, ops10_sub, ops11_sub, ops12_sub, ops13_sub, ops14_sub, ops15_sub, ops16_sub, ops17_sub, ops18_sub, ops19_sub, ops20_sub⟩)

/-- No operation allocates. -/
theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor
theorem ops5_fresh : (ops5 : List (HloOp τ sig (Elt F))).Forall fun op => op.fresh = ∅ := by
  simp only [List.Forall]; repeat' constructor
theorem ops6_fresh : (ops6 : List (HloOp τ sig (Elt F))).Forall fun op => op.fresh = ∅ := by
  simp only [List.Forall]; repeat' constructor
theorem ops7_fresh : (ops7 : List (HloOp τ sig (Elt F))).Forall fun op => op.fresh = ∅ := by
  simp only [List.Forall]; repeat' constructor
theorem ops8_fresh : (ops8 : List (HloOp τ sig (Elt F))).Forall fun op => op.fresh = ∅ := by
  simp only [List.Forall]; repeat' constructor
theorem ops9_fresh : (ops9 : List (HloOp τ sig (Elt F))).Forall fun op => op.fresh = ∅ := by
  simp only [List.Forall]; repeat' constructor
theorem ops10_fresh : (ops10 : List (HloOp τ sig (Elt F))).Forall fun op => op.fresh = ∅ := by
  simp only [List.Forall]; repeat' constructor
theorem ops11_fresh : (ops11 : List (HloOp τ sig (Elt F))).Forall fun op => op.fresh = ∅ := by
  simp only [List.Forall]; repeat' constructor
theorem ops12_fresh : (ops12 : List (HloOp τ sig (Elt F))).Forall fun op => op.fresh = ∅ := by
  simp only [List.Forall]; repeat' constructor
theorem ops13_fresh : (ops13 : List (HloOp τ sig (Elt F))).Forall fun op => op.fresh = ∅ := by
  simp only [List.Forall]; repeat' constructor
theorem ops14_fresh : (ops14 : List (HloOp τ sig (Elt F))).Forall fun op => op.fresh = ∅ := by
  simp only [List.Forall]; repeat' constructor
theorem ops15_fresh : (ops15 : List (HloOp τ sig (Elt F))).Forall fun op => op.fresh = ∅ := by
  simp only [List.Forall]; repeat' constructor
theorem ops16_fresh : (ops16 : List (HloOp τ sig (Elt F))).Forall fun op => op.fresh = ∅ := by
  simp only [List.Forall]; repeat' constructor
theorem ops17_fresh : (ops17 : List (HloOp τ sig (Elt F))).Forall fun op => op.fresh = ∅ := by
  simp only [List.Forall]; repeat' constructor
theorem ops18_fresh : (ops18 : List (HloOp τ sig (Elt F))).Forall fun op => op.fresh = ∅ := by
  simp only [List.Forall]; repeat' constructor
theorem ops19_fresh : (ops19 : List (HloOp τ sig (Elt F))).Forall fun op => op.fresh = ∅ := by
  simp only [List.Forall]; repeat' constructor
theorem ops20_fresh : (ops20 : List (HloOp τ sig (Elt F))).Forall fun op => op.fresh = ∅ := by
  simp only [List.Forall]; repeat' constructor

theorem ops_fresh : ∀ op ∈ (stretches (F := F)).flatten, op.fresh = ∅ :=
  List.forall_iff_forall_mem.mp (forall_flatten _ (by
    simp only [List.Forall]
    exact ⟨ops0_fresh, ops1_fresh, ops2_fresh, ops3_fresh, ops4_fresh, ops5_fresh, ops6_fresh, ops7_fresh, ops8_fresh, ops9_fresh, ops10_fresh, ops11_fresh, ops12_fresh, ops13_fresh, ops14_fresh, ops15_fresh, ops16_fresh, ops17_fresh, ops18_fresh, ops19_fresh, ops20_fresh⟩))

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the reference's @main terminates, and every
    final state has each TensorCore buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (stretches (F := F)).flatten (launchContents m c) (Proc.devRef .tc b) :=
  run_seq scopedRefs_eq scopedSems_eq defs main (fun _ => (stretches (F := F)).flatten) main_eq (fun _ => ops_sub) m ρ
    (fun _ => ops_fresh)

end Cert.ReferenceIdeal.RefRun

end
-- ==== Proof.KernelBlocks.Grid.lean ====
import proofs.«170907_j46136538694238_2_alg».proof.Proof.Gen.KernelIdeal.Frame
import Idealize.ShloMosaic.Lib.Pipeline.Value

/-! Where each grid point's blocks sit. The block indices of the windows over the 1024 grid points, decided once: every
    tiled window is at column block `t` (rows and channels whole), the idle window stays at block (0, 0). And the three
    output windows' blocks cover their arrays: column `n` lies in the block of point `n / 128`. -/

set_option Elab.async false

noncomputable section

namespace Cert.KernelIdeal.Blocks

open Idealize.ShloMosaic Cert.KernelIdeal Cert.KernelIdeal.Gen
open Idealize.ShloMosaic.Pipeline (Dat)

/-! ## The block indices at a point -/

/-- The colour input's block at point `t`: all rows, column block `t`, all channels. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
/-- The first logit input's block at point `t`. -/
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
/-- The second logit input's block at point `t`. -/
theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
/-- The first mask's block at point `t`. -/
theorem idx3 : ∀ t : Fin cfg0.N, win0_3.index t (0 : Fin 2) = 0 ∧ win0_3.index t (1 : Fin 2) = t.val :=
  (by decide +kernel : ∀ t : Fin grid0.N, _)
/-- The second mask's block at point `t`. -/
theorem idx4 : ∀ t : Fin cfg0.N, win0_4.index t (0 : Fin 2) = 0 ∧ win0_4.index t (1 : Fin 2) = t.val :=
  (by decide +kernel : ∀ t : Fin grid0.N, _)
/-- The idle column is one block, at every point. -/
theorem idx5 : ∀ t : Fin cfg0.N, win0_5.index t (0 : Fin 2) = 0 ∧ win0_5.index t (1 : Fin 2) = 0 :=
  (by decide +kernel : ∀ t : Fin grid0.N, _)
/-- The colour output's block at point `t`. -/
theorem idx6 : ∀ t : Fin cfg0.N, win0_6.index t (0 : Fin 3) = 0 ∧ win0_6.index t (1 : Fin 3) = t.val ∧ win0_6.index t (2 : Fin 3) = 0 :=
  (by decide +kernel : ∀ t : Fin grid0.N, _)
/-- The first logit output's block at point `t`. -/
theorem idx7 : ∀ t : Fin cfg0.N, win0_7.index t (0 : Fin 3) = 0 ∧ win0_7.index t (1 : Fin 3) = t.val ∧ win0_7.index t (2 : Fin 3) = 0 :=
  (by decide +kernel : ∀ t : Fin grid0.N, _)
/-- The second logit output's block at point `t`. -/
theorem idx8 : ∀ t : Fin cfg0.N, win0_8.index t (0 : Fin 3) = 0 ∧ win0_8.index t (1 : Fin 3) = t.val ∧ win0_8.index t (2 : Fin 3) = 0 :=
  (by decide +kernel : ∀ t : Fin grid0.N, _)

/-- A point's number is below 1024. -/
theorem point_lt (t : Fin cfg0.N) : t.val < 1024 := lt_of_lt_of_eq t.isLt N_0

/-! ## Membership in an output block, and the cover -/

/-- An index of the colour output is in point `t`'s block iff each coordinate is in the block's range on its axis. -/
theorem mem_blk6 (t : Fin cfg0.N) (i : S32x131072x3.Idx) :
    i ∈ ((cfg0.win 6).blk t).view.set ↔ ∀ a : Fin 3, win0_6.index t a * S32x128x3.size a ≤ (i a).val ∧ (i a).val < win0_6.index t a * S32x128x3.size a + S32x128x3.size a := by
  show i ∈ ((View.whole main_v23_0).slice (win0_6.rect t)).set ↔ _
  rw [View.set_slice_whole, Rect.mem_set_unit]
  exact Iff.rfl

/-- The same for the first logit output. -/
theorem mem_blk7 (t : Fin cfg0.N) (i : S32x131072x1.Idx) :
    i ∈ ((cfg0.win 7).blk t).view.set ↔ ∀ a : Fin 3, win0_7.index t a * S32x128x1.size a ≤ (i a).val ∧ (i a).val < win0_7.index t a * S32x128x1.size a + S32x128x1.size a := by
  show i ∈ ((View.whole main_v23_1).slice (win0_7.rect t)).set ↔ _
  rw [View.set_slice_whole, Rect.mem_set_unit]
  exact Iff.rfl

/-- The same for the second logit output. -/
theorem mem_blk8 (t : Fin cfg0.N) (i : S32x131072x1.Idx) :
    i ∈ ((cfg0.win 8).blk t).view.set ↔ ∀ a : Fin 3, win0_8.index t a * S32x128x1.size a ≤ (i a).val ∧ (i a).val < win0_8.index t a * S32x128x1.size a + S32x128x1.size a := by
  show i ∈ ((View.whole main_v23_2).slice (win0_8.rect t)).set ↔ _
  rw [View.set_slice_whole, Rect.mem_set_unit]
  exact Iff.rfl

/-- Every index of the colour output is in the block of the point its column falls in. -/
theorem cover6 (i : S32x131072x3.Idx) : ∃ t : Fin cfg0.N, (cfg0.win 6).flush t = true ∧ i ∈ ((cfg0.win 6).blk t).view.set := by
  have hN : cfg0.N = 1024 := N_0
  have h0 : (i 0).val < 32 := (i 0).isLt
  have h1 : (i 1).val < 131072 := (i 1).isLt
  have h2 : (i 2).val < 3 := (i 2).isLt
  obtain ⟨t, ht⟩ : ∃ t : Fin cfg0.N, t.val = (i 1).val / 128 := ⟨⟨(i 1).val / 128, by rw [hN]; omega⟩, rfl⟩
  obtain ⟨e0, e1, e2⟩ := idx6 t
  refine ⟨t, flush0_6 t, ?_⟩
  rw [mem_blk6]
  intro a
  match a with
  | ⟨0, _⟩ => show win0_6.index t (0 : Fin 3) * 32 ≤ (i 0).val ∧ (i 0).val < win0_6.index t (0 : Fin 3) * 32 + 32; omega
  | ⟨1, _⟩ => show win0_6.index t (1 : Fin 3) * 128 ≤ (i 1).val ∧ (i 1).val < win0_6.index t (1 : Fin 3) * 128 + 128; omega
  | ⟨2, _⟩ => show win0_6.index t (2 : Fin 3) * 3 ≤ (i 2).val ∧ (i 2).val < win0_6.index t (2 : Fin 3) * 3 + 3; omega

/-- Every index of the first logit output is in the block of the point its column falls in. -/
theorem cover7 (i : S32x131072x1.Idx) : ∃ t : Fin cfg0.N, (cfg0.win 7).flush t = true ∧ i ∈ ((cfg0.win 7).blk t).view.set := by
  have hN : cfg0.N = 1024 := N_0
  have h0 : (i 0).val < 32 := (i 0).isLt
  have h1 : (i 1).val < 131072 := (i 1).isLt
  have h2 : (i 2).val < 1 := (i 2).isLt
  obtain ⟨t, ht⟩ : ∃ t : Fin cfg0.N, t.val = (i 1).val / 128 := ⟨⟨(i 1).val / 128, by rw [hN]; omega⟩, rfl⟩
  obtain ⟨e0, e1, e2⟩ := idx7 t
  refine ⟨t, flush0_7 t, ?_⟩
  rw [mem_blk7]
  intro a
  match a with
  | ⟨0, _⟩ => show win0_7.index t (0 : Fin 3) * 32 ≤ (i 0).val ∧ (i 0).val < win0_7.index t (0 : Fin 3) * 32 + 32; omega
  | ⟨1, _⟩ => show win0_7.index t (1 : Fin 3) * 128 ≤ (i 1).val ∧ (i 1).val < win0_7.index t (1 : Fin 3) * 128 + 128; omega
  | ⟨2, _⟩ => show win0_7.index t (2 : Fin 3) * 1 ≤ (i 2).val ∧ (i 2).val < win0_7.index t (2 : Fin 3) * 1 + 1; omega

/-- Every index of the second logit output is in the block of the point its column falls in. -/
theorem cover8 (i : S32x131072x1.Idx) : ∃ t : Fin cfg0.N, (cfg0.win 8).flush t = true ∧ i ∈ ((cfg0.win 8).blk t).view.set := by
  have hN : cfg0.N = 1024 := N_0
  have h0 : (i 0).val < 32 := (i 0).isLt
  have h1 : (i 1).val < 131072 := (i 1).isLt
  have h2 : (i 2).val < 1 := (i 2).isLt
  obtain ⟨t, ht⟩ : ∃ t : Fin cfg0.N, t.val = (i 1).val / 128 := ⟨⟨(i 1).val / 128, by rw [hN]; omega⟩, rfl⟩
  obtain ⟨e0, e1, e2⟩ := idx8 t
  refine ⟨t, flush0_8 t, ?_⟩
  rw [mem_blk8]
  intro a
  match a with
  | ⟨0, _⟩ => show win0_8.index t (0 : Fin 3) * 32 ≤ (i 0).val ∧ (i 0).val < win0_8.index t (0 : Fin 3) * 32 + 32; omega
  | ⟨1, _⟩ => show win0_8.index t (1 : Fin 3) * 128 ≤ (i 1).val ∧ (i 1).val < win0_8.index t (1 : Fin 3) * 128 + 128; omega
  | ⟨2, _⟩ => show win0_8.index t (2 : Fin 3) * 1 ≤ (i 2).val ∧ (i 2).val < win0_8.index t (2 : Fin 3) * 1 + 1; omega

end Cert.KernelIdeal.Blocks

end
-- ==== Proof.KernelBlocks.Payloads.lean ====
import proofs.«170907_j46136538694238_2_alg».proof.Proof.Gen.KernelIdeal.Skeleton
import Idealize.ShloMosaic.Lib.Pipeline.Value
import Idealize.ShloMosaic.Lib.ValueIdx
import Idealize.ShloMosaic.Lib.ValueLayout

/-! The kernel's arithmetic at one element. The two whole-array functions the kernel computes (`rgbOut`, `logitOut`),
    the layout operations of the body read at an index (a trailing unit axis dropped or added, a column broadcast along
    its rows), each payload of the body read at an index, and the payload at a block index set beside the whole-array
    function at the array index the block index sits at. -/

noncomputable section

namespace Cert.KernelIdeal.Blocks

open Idealize.ShloMosaic Idealize.ShloMosaic.ValueIdx Cert.KernelIdeal Cert.KernelIdeal.Gen

/-! ## The two functions -/

/-- colour output: where the mask word is nonzero the expanded colour times (1 − idle of the row), else 0 -/
def rgbOut (E : FVec Ideal S32x131072x3 .f32) (M : IVec S32x131072 32) (I : FVec Ideal S32x1 .f32) : FVec Ideal S32x131072x3 .f32 :=
  fun i => Scalar.select (IntOp.cmpi .ne (M (ix2 (i 0) (i 1))) 0#32)
    (E i * (Ideal.ofBits .f32 0x3F800000#32 - I (ix2 (i 0) 0)))
    (Ideal.ofBits .f32 0x00000000#32)

/-- logit output: where the mask word is nonzero, logit·(1 − idle) + idle·(−1e8), else −1000 -/
def logitOut (E : FVec Ideal S32x131072x1 .f32) (M : IVec S32x131072 32) (I : FVec Ideal S32x1 .f32) : FVec Ideal S32x131072x1 .f32 :=
  fun i => Scalar.select (IntOp.cmpi .ne (M (ix2 (i 0) (i 1))) 0#32)
    (E i * (Ideal.ofBits .f32 0x3F800000#32 - I (ix2 (i 0) 0)) + I (ix2 (i 0) 0) * Ideal.ofBits .f32 0xCCBEBC20#32)
    (Ideal.ofBits .f32 0xC47A0000#32)

/-! ## Zero offsets, however spelt -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## Layout operations at an index -/

section Layout
variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's payloads at an index -/

/-- The idle column as loaded is the idle column. -/
theorem idle_keep (x5 : FVec Ideal S32x1 .f32) : k0_pay4 x5 = x5 := shapeCast_self x5 shapeCasts_S32x1_S32x1

/-- One minus the idle column. -/
theorem one_minus_idle (x5 : FVec Ideal S32x1 .f32) (i : S32x1.Idx) :
    k0_pay5 x5 i = Ideal.ofBits .f32 0x3F800000#32 - x5 i := by
  show subf (broadcast S32x1 (Ideal.ofBits .f32 0x3F800000#32)) (k0_pay4 x5) i = _
  rw [idle_keep]
  all_goals rfl

/-- The first mask's bit: the word is not zero. -/
theorem mask_bit (x3 : IVec S32x128 32) (i : S32x128.Idx) : k0_pay6 (F := Ideal) x3 i = IntOp.cmpi .ne (x3 i) 0#32 := by
  show cmpi .ne (shapeCast S32x128 x3 shapeCasts_S32x128_S32x128) (broadcast S32x128 0#32) i = _
  rw [shapeCast_self]
  all_goals rfl

/-- The second mask's bit. -/
theorem mask_bit' (x4 : IVec S32x128 32) (i : S32x128.Idx) : k0_pay7 (F := Ideal) x4 i = IntOp.cmpi .ne (x4 i) 0#32 := by
  show cmpi .ne (shapeCast S32x128 x4 shapeCasts_S32x128_S32x128) (broadcast S32x128 0#32) i = _
  rw [shapeCast_self]
  all_goals rfl

/-- The colour payload (one channel) as a tree of operations. -/
theorem rgbPay_eq (v3 : FVec Ideal S32x1 .f32) (v7 : IVec S32x128 1) (v30 : FVec Ideal S32x128x1 .f32) :
    k0_pay1 v3 v7 v30 = shapeCast S32x128x1 (select v7 (mulf (F := Ideal) (s := S32x128) (φ := .f32) (shapeCast S32x128 v30 shapeCasts_S32x128x1_S32x128)
      (broadcastTo S32x128 v3 broadcasts_S32x1_S32x128)) (broadcast S32x128 (Ideal.ofBits .f32 0x00000000#32))) shapeCasts_S32x128_S32x128x1 := rfl

/-- The colour payload at an index. -/
theorem rgbPay_apply (v3 : FVec Ideal S32x1 .f32) (v7 : IVec S32x128 1) (v30 : FVec Ideal S32x128x1 .f32) (b : Fin 32) (r : Fin 128) (z : Fin 1) :
    k0_pay1 v3 v7 v30 (ix3 b r z) = Scalar.select (v7 (ix2 b r)) (v30 (ix3 b r (0 : Fin 1)) * v3 (ix2 b (0 : Fin 1))) (Ideal.ofBits .f32 0x00000000#32) := by
  rw [rgbPay_eq]
  refine (shapeCast_ab_ab1_apply _ _ b r z).trans ?_
  rw [select_apply, mulf_apply, shapeCast_ab1_ab_apply, broadcastTo_a1_ab_apply]
  all_goals rfl

/-- The logit payload as a tree of operations. -/
theorem logitPay_eq (v1 v3 : FVec Ideal S32x1 .f32) (v7 : IVec S32x128 1) (v39 : FVec Ideal S32x128x1 .f32) :
    k0_pay2 v1 v3 v7 v39 = shapeCast S32x128x1 (select v7 (addf (F := Ideal) (s := S32x128) (φ := .f32)
        (mulf (F := Ideal) (s := S32x128) (φ := .f32) (shapeCast S32x128 v39 shapeCasts_S32x128x1_S32x128)
          (broadcastTo S32x128 v3 broadcasts_S32x1_S32x128))
        (broadcastTo S32x128 (mulf (F := Ideal) (s := S32x1) (φ := .f32) v1 (broadcast S32x1 (Ideal.ofBits .f32 0xCCBEBC20#32))) broadcasts_S32x1_S32x128))
      (broadcast S32x128 (Ideal.ofBits .f32 0xC47A0000#32))) shapeCasts_S32x128_S32x128x1 := rfl

/-- The second logit payload is the same tree. -/
theorem logitPay_eq' (v1 v3 : FVec Ideal S32x1 .f32) (v11 : IVec S32x128 1) (v52 : FVec Ideal S32x128x1 .f32) :
    k0_pay3 v1 v3 v11 v52 = k0_pay2 v1 v3 v11 v52 := rfl

/-- The logit payload at an index. -/
theorem logitPay_apply (v1 v3 : FVec Ideal S32x1 .f32) (v7 : IVec S32x128 1) (v39 : FVec Ideal S32x128x1 .f32) (b : Fin 32) (r : Fin 128) (z : Fin 1) :
    k0_pay2 v1 v3 v7 v39 (ix3 b r z) = Scalar.select (v7 (ix2 b r))
      (v39 (ix3 b r (0 : Fin 1)) * v3 (ix2 b (0 : Fin 1)) + v1 (ix2 b (0 : Fin 1)) * Ideal.ofBits .f32 0xCCBEBC20#32)
      (Ideal.ofBits .f32 0xC47A0000#32) := by
  rw [logitPay_eq]
  refine (shapeCast_ab_ab1_apply _ _ b r z).trans ?_
  rw [select_apply, addf_apply, mulf_apply, shapeCast_ab1_ab_apply, broadcastTo_a1_ab_apply, broadcastTo_a1_ab_apply]
  all_goals rfl

/-! ## A payload at a block index, beside the whole-array function -/

/-- The logit payload at block index `(b, r, z)`, over blocks that hold the arrays' elements at column `n`, is
    `logitOut` of the arrays at `(b, n, z)`. -/
theorem logit_point (E : FVec Ideal S32x131072x1 .f32) (M : IVec S32x131072 32) (I : FVec Ideal S32x1 .f32)
    (x1 : FVec Ideal S32x128x1 .f32) (x3 : IVec S32x128 32) (x5 : FVec Ideal S32x1 .f32)
    (b : Fin 32) (r : Fin 128) (z : Fin 1) (n : Fin 131072)
    (h1 : x1 (ix3 b r (0 : Fin 1)) = E (ix3 b n z)) (h3 : x3 (ix2 b r) = M (ix2 b n))
    (h5 : x5 (ix2 b (0 : Fin 1)) = I (ix2 b (0 : Fin 1))) :
    k0_pay2 (k0_pay4 x5) (k0_pay5 x5) (k0_pay6 (F := Ideal) x3) x1 (ix3 b r z) = logitOut E M I (ix3 b n z) := by
  rw [logitPay_apply, idle_keep, one_minus_idle, mask_bit, h1, h3, h5]
  all_goals rfl

/-- The same for the second logit window (its own mask). -/
theorem logit_point' (E : FVec Ideal S32x131072x1 .f32) (M : IVec S32x131072 32) (I : FVec Ideal S32x1 .f32)
    (x2 : FVec Ideal S32x128x1 .f32) (x4 : IVec S32x128 32) (x5 : FVec Ideal S32x1 .f32)
    (b : Fin 32) (r : Fin 128) (z : Fin 1) (n : Fin 131072)
    (h2 : x2 (ix3 b r (0 : Fin 1)) = E (ix3 b n z)) (h4 : x4 (ix2 b r) = M (ix2 b n))
    (h5 : x5 (ix2 b (0 : Fin 1)) = I (ix2 b (0 : Fin 1))) :
    k0_pay3 (k0_pay4 x5) (k0_pay5 x5) (k0_pay7 (F := Ideal) x4) x2 (ix3 b r z) = logitOut E M I (ix3 b n z) := by
  rw [logitPay_eq', logitPay_apply, idle_keep, one_minus_idle, mask_bit', h2, h4, h5]
  all_goals rfl

/-- The colour payload of channel `ch` at block index `(b, r, z)`, over a slab that holds the colour block's channel
    `ch` and blocks that hold the arrays' elements at column `n`, is `rgbOut` of the arrays at `(b, n, ch)`. -/
theorem rgb_point (E : FVec Ideal S32x131072x3 .f32) (M : IVec S32x131072 32) (I : FVec Ideal S32x1 .f32)
    (v : FVec Ideal S32x128x1 .f32) (x3 : IVec S32x128 32) (x5 : FVec Ideal S32x1 .f32)
    (b : Fin 32) (r : Fin 128) (z : Fin 1) (n : Fin 131072) (ch : Fin 3)
    (h0 : v (ix3 b r (0 : Fin 1)) = E (ix3 b n ch)) (h3 : x3 (ix2 b r) = M (ix2 b n))
    (h5 : x5 (ix2 b (0 : Fin 1)) = I (ix2 b (0 : Fin 1))) :
    k0_pay1 (k0_pay5 x5) (k0_pay6 (F := Ideal) x3) v (ix3 b r z) = rgbOut E M I (ix3 b n ch) := by
  rw [rgbPay_apply, one_minus_idle, mask_bit, h0, h3, h5]
  all_goals rfl

end Cert.KernelIdeal.Blocks

end
-- ==== Proof.KernelBlocks.Reads.lean ====
import proofs.«170907_j46136538694238_2_alg».proof.Proof.KernelBlocks.Grid
import Idealize.ShloMosaic.Lib.Pipeline.Value
import Idealize.ShloMosaic.Lib.ValueIdx

/-! A window's block at a grid point read element by element, for ANY contents of the array: the element at block index
    `(b, r, …)` of point `t`'s block is the array's at column `128 t + r` (block index × block size + the coordinate inside
    the block); the idle window's one block is the column itself. And, for the three outputs, what a write-back takes of
    the staging buffer and where a block index sits in the array. -/

noncomputable section

namespace Cert.KernelIdeal.Blocks

open Idealize.ShloMosaic Idealize.ShloMosaic.ValueIdx Cert.KernelIdeal Cert.KernelIdeal.Gen
open Idealize.ShloMosaic.Pipeline (Dat)

/-! ## Where a block index sits in its array -/

theorem emb0 (t : Fin cfg0.N) (b : Fin 32) (r : Fin 128) (ch : Fin 3) (n : Fin 131072) (hn : n.val = t.val * 128 + r.val) :
    ((cfg0.win 0).blk t).view.emb (ix3 b r ch) = (ix3 b n ch : S32x131072x3.Idx) := by
  obtain ⟨e0, e1, e2⟩ := idx0 t
  refine funext fun a => Fin.ext ?_
  match a with
  | ⟨0, _⟩ => show win0_0.index t (0 : Fin 3) * 32 + 1 * b.val = b.val; omega
  | ⟨1, _⟩ => show win0_0.index t (1 : Fin 3) * 128 + 1 * r.val = n.val; omega
  | ⟨2, _⟩ => show win0_0.index t (2 : Fin 3) * 3 + 1 * ch.val = ch.val; omega

theorem emb1 (t : Fin cfg0.N) (b : Fin 32) (r : Fin 128) (z : Fin 1) (n : Fin 131072) (hn : n.val = t.val * 128 + r.val) :
    ((cfg0.win 1).blk t).view.emb (ix3 b r (0 : Fin 1)) = (ix3 b n z : S32x131072x1.Idx) := by
  obtain ⟨e0, e1, e2⟩ := idx1 t
  have hz : z.val = 0 := by omega
  refine funext fun a => Fin.ext ?_
  match a with
  | ⟨0, _⟩ => show win0_1.index t (0 : Fin 3) * 32 + 1 * b.val = b.val; omega
  | ⟨1, _⟩ => show win0_1.index t (1 : Fin 3) * 128 + 1 * r.val = n.val; omega
  | ⟨2, _⟩ => show win0_1.index t (2 : Fin 3) * 1 + 1 * 0 = z.val; omega

theorem emb2 (t : Fin cfg0.N) (b : Fin 32) (r : Fin 128) (z : Fin 1) (n : Fin 131072) (hn : n.val = t.val * 128 + r.val) :
    ((cfg0.win 2).blk t).view.emb (ix3 b r (0 : Fin 1)) = (ix3 b n z : S32x131072x1.Idx) := by
  obtain ⟨e0, e1, e2⟩ := idx2 t
  have hz : z.val = 0 := by omega
  refine funext fun a => Fin.ext ?_
  match a with
  | ⟨0, _⟩ => show win0_2.index t (0 : Fin 3) * 32 + 1 * b.val = b.val; omega
  | ⟨1, _⟩ => show win0_2.index t (1 : Fin 3) * 128 + 1 * r.val = n.val; omega
  | ⟨2, _⟩ => show win0_2.index t (2 : Fin 3) * 1 + 1 * 0 = z.val; omega

theorem emb3 (t : Fin cfg0.N) (b : Fin 32) (r : Fin 128) (n : Fin 131072) (hn : n.val = t.val * 128 + r.val) :
    ((cfg0.win 3).blk t).view.emb (ix2 b r) = (ix2 b n : S32x131072.Idx) := by
  obtain ⟨e0, e1⟩ := idx3 t
  refine funext fun a => Fin.ext ?_
  match a with
  | ⟨0, _⟩ => show win0_3.index t (0 : Fin 2) * 32 + 1 * b.val = b.val; omega
  | ⟨1, _⟩ => show win0_3.index t (1 : Fin 2) * 128 + 1 * r.val = n.val; omega

theorem emb4 (t : Fin cfg0.N) (b : Fin 32) (r : Fin 128) (n : Fin 131072) (hn : n.val = t.val * 128 + r.val) :
    ((cfg0.win 4).blk t).view.emb (ix2 b r) = (ix2 b n : S32x131072.Idx) := by
  obtain ⟨e0, e1⟩ := idx4 t
  refine funext fun a => Fin.ext ?_
  match a with
  | ⟨0, _⟩ => show win0_4.index t (0 : Fin 2) * 32 + 1 * b.val = b.val; omega
  | ⟨1, _⟩ => show win0_4.index t (1 : Fin 2) * 128 + 1 * r.val = n.val; omega

theorem emb5 (t : Fin cfg0.N) (b : Fin 32) :
    ((cfg0.win 5).blk t).view.emb (ix2 b (0 : Fin 1)) = (ix2 b (0 : Fin 1) : S32x1.Idx) := by
  obtain ⟨e0, e1⟩ := idx5 t
  refine funext fun a => Fin.ext ?_
  match a with
  | ⟨0, _⟩ => show win0_5.index t (0 : Fin 2) * 32 + 1 * b.val = b.val; omega
  | ⟨1, _⟩ => show win0_5.index t (1 : Fin 2) * 1 + 1 * 0 = 0; omega

theorem emb6 (t : Fin cfg0.N) (b : Fin 32) (r : Fin 128) (ch : Fin 3) (n : Fin 131072) (hn : n.val = t.val * 128 + r.val) :
    ((cfg0.win 6).blk t).view.emb (ix3 b r ch) = (ix3 b n ch : S32x131072x3.Idx) := by
  obtain ⟨e0, e1, e2⟩ := idx6 t
  refine funext fun a => Fin.ext ?_
  match a with
  | ⟨0, _⟩ => show win0_6.index t (0 : Fin 3) * 32 + 1 * b.val = b.val; omega
  | ⟨1, _⟩ => show win0_6.index t (1 : Fin 3) * 128 + 1 * r.val = n.val; omega
  | ⟨2, _⟩ => show win0_6.index t (2 : Fin 3) * 3 + 1 * ch.val = ch.val; omega

theorem emb7 (t : Fin cfg0.N) (b : Fin 32) (r : Fin 128) (z : Fin 1) (n : Fin 131072) (hn : n.val = t.val * 128 + r.val) :
    ((cfg0.win 7).blk t).view.emb (ix3 b r z) = (ix3 b n z : S32x131072x1.Idx) := by
  obtain ⟨e0, e1, e2⟩ := idx7 t
  refine funext fun a => Fin.ext ?_
  match a with
  | ⟨0, _⟩ => show win0_7.index t (0 : Fin 3) * 32 + 1 * b.val = b.val; omega
  | ⟨1, _⟩ => show win0_7.index t (1 : Fin 3) * 128 + 1 * r.val = n.val; omega
  | ⟨2, _⟩ => show win0_7.index t (2 : Fin 3) * 1 + 1 * z.val = z.val; omega

theorem emb8 (t : Fin cfg0.N) (b : Fin 32) (r : Fin 128) (z : Fin 1) (n : Fin 131072) (hn : n.val = t.val * 128 + r.val) :
    ((cfg0.win 8).blk t).view.emb (ix3 b r z) = (ix3 b n z : S32x131072x1.Idx) := by
  obtain ⟨e0, e1, e2⟩ := idx8 t
  refine funext fun a => Fin.ext ?_
  match a with
  | ⟨0, _⟩ => show win0_8.index t (0 : Fin 3) * 32 + 1 * b.val = b.val; omega
  | ⟨1, _⟩ => show win0_8.index t (1 : Fin 3) * 128 + 1 * r.val = n.val; omega
  | ⟨2, _⟩ => show win0_8.index t (2 : Fin 3) * 1 + 1 * z.val = z.val; omega

/-! ## A block read, for any contents of the array -/

theorem read0_at (A : FVec Ideal S32x131072x3 .f32) (t : Fin cfg0.N) (b : Fin 32) (r : Fin 128) (ch : Fin 3) (n : Fin 131072) (hn : n.val = t.val * 128 + r.val) :
    ((cfg0.win 0).blk t).view.read (Elt Ideal) A (ix3 b r ch) = A (ix3 b n ch) :=
  congrArg A (emb0 t b r ch n hn)
theorem read1_at (A : FVec Ideal S32x131072x1 .f32) (t : Fin cfg0.N) (b : Fin 32) (r : Fin 128) (z : Fin 1) (n : Fin 131072) (hn : n.val = t.val * 128 + r.val) :
    ((cfg0.win 1).blk t).view.read (Elt Ideal) A (ix3 b r (0 : Fin 1)) = A (ix3 b n z) :=
  congrArg A (emb1 t b r z n hn)
theorem read2_at (A : FVec Ideal S32x131072x1 .f32) (t : Fin cfg0.N) (b : Fin 32) (r : Fin 128) (z : Fin 1) (n : Fin 131072) (hn : n.val = t.val * 128 + r.val) :
    ((cfg0.win 2).blk t).view.read (Elt Ideal) A (ix3 b r (0 : Fin 1)) = A (ix3 b n z) :=
  congrArg A (emb2 t b r z n hn)
theorem read3_at (A : IVec S32x131072 32) (t : Fin cfg0.N) (b : Fin 32) (r : Fin 128) (n : Fin 131072) (hn : n.val = t.val * 128 + r.val) :
    ((cfg0.win 3).blk t).view.read (Elt Ideal) A (ix2 b r) = A (ix2 b n) :=
  congrArg A (emb3 t b r n hn)
theorem read4_at (A : IVec S32x131072 32) (t : Fin cfg0.N) (b : Fin 32) (r : Fin 128) (n : Fin 131072) (hn : n.val = t.val * 128 + r.val) :
    ((cfg0.win 4).blk t).view.read (Elt Ideal) A (ix2 b r) = A (ix2 b n) :=
  congrArg A (emb4 t b r n hn)
theorem read5_at (A : FVec Ideal S32x1 .f32) (t : Fin cfg0.N) (b : Fin 32) :
    ((cfg0.win 5).blk t).view.read (Elt Ideal) A (ix2 b (0 : Fin 1)) = A (ix2 b (0 : Fin 1)) :=
  congrArg A (emb5 t b)
theorem read6_at (A : FVec Ideal S32x131072x3 .f32) (t : Fin cfg0.N) (b : Fin 32) (r : Fin 128) (ch : Fin 3) (n : Fin 131072) (hn : n.val = t.val * 128 + r.val) :
    ((cfg0.win 6).blk t).view.read (Elt Ideal) A (ix3 b r ch) = A (ix3 b n ch) :=
  congrArg A (emb6 t b r ch n hn)
theorem read7_at (A : FVec Ideal S32x131072x1 .f32) (t : Fin cfg0.N) (b : Fin 32) (r : Fin 128) (z : Fin 1) (n : Fin 131072) (hn : n.val = t.val * 128 + r.val) :
    ((cfg0.win 7).blk t).view.read (Elt Ideal) A (ix3 b r z) = A (ix3 b n z) :=
  congrArg A (emb7 t b r z n hn)
theorem read8_at (A : FVec Ideal S32x131072x1 .f32) (t : Fin cfg0.N) (b : Fin 32) (r : Fin 128) (z : Fin 1) (n : Fin 131072) (hn : n.val = t.val * 128 + r.val) :
    ((cfg0.win 8).blk t).view.read (Elt Ideal) A (ix3 b r z) = A (ix3 b n z) :=
  congrArg A (emb8 t b r z n hn)

/-! ## What a write-back takes of the staging buffer: all of it -/

theorem cut6_apply (X : FVec Ideal S32x128x3 .f32) (t : Fin cfg0.N) (j : S32x128x3.Idx) : (cfg0.win 6).cut (grid0.coords t) X j = X j := rfl
theorem cut7_apply (X : FVec Ideal S32x128x1 .f32) (t : Fin cfg0.N) (j : S32x128x1.Idx) : (cfg0.win 7).cut (grid0.coords t) X j = X j := rfl
theorem cut8_apply (X : FVec Ideal S32x128x1 .f32) (t : Fin cfg0.N) (j : S32x128x1.Idx) : (cfg0.win 8).cut (grid0.coords t) X j = X j := rfl

end Cert.KernelIdeal.Blocks

end
-- ==== Proof.KernelBlocks.Slabs.lean ====
import proofs.«170907_j46136538694238_2_alg».proof.Proof.Gen.KernelIdeal.Frame
import proofs.«170907_j46136538694238_2_alg».proof.Proof.KernelBlocks.Payloads
import Idealize.ShloMosaic.Lib.Pipeline.Value
import Idealize.ShloMosaic.Lib.ValueIdx

/-! The colour output's staging buffer after the body: three channel slabs stored one by one read back as ONE function of
    the block index — each store's payload is its slab of that function, and the slabs cover the buffer. -/

noncomputable section

namespace Cert.KernelIdeal.Blocks

open Idealize.ShloMosaic Idealize.ShloMosaic.ValueIdx Cert.KernelIdeal Cert.KernelIdeal.Gen
open Idealize.ShloMosaic.Pipeline (Dat)

/-- Channel slab `o` of the colour block: its index `(b, r, 0)` sits at `(b, r, o)` of the block. -/
theorem slab_emb (o : Nat) (inb : ∀ a, (![0, 0, o] : Fin 3 → Nat) a + S32x128x1.size a ≤ S32x128x3.size a) (k : Fin 3) (hk : k.val = o)
    (b : Fin 32) (r : Fin 128) (z : Fin 1) :
    (Rect.unit (s := S32x128x3) ![0, 0, o] S32x128x1.size inb).emb (ix3 b r z) = (ix3 b r k : S32x128x3.Idx) := by
  have hz : z.val = 0 := by omega
  refine funext fun a => Fin.ext ?_
  match a with
  | ⟨0, _⟩ => show 0 + 1 * b.val = b.val; omega
  | ⟨1, _⟩ => show 0 + 1 * r.val = r.val; omega
  | ⟨2, _⟩ => show o + 1 * z.val = k.val; omega

/-- What the three channel stores leave in the colour output's buffer, at block index `(b, r, ch)`, over blocks that
    hold the arrays' elements at column `col r`: `rgbOut` of the arrays at `(b, col r, ch)`. Each store's payload is its
    slab of that one function of the block index, and the slabs cover the buffer. -/
theorem rgb_block (E : FVec Ideal S32x131072x3 .f32) (M : IVec S32x131072 32) (I : FVec Ideal S32x1 .f32)
    (x0 : FVec Ideal S32x128x3 .f32) (x3 : IVec S32x128 32) (x5 : FVec Ideal S32x1 .f32) (col : Fin 128 → Fin 131072)
    (h0 : ∀ (b : Fin 32) (r : Fin 128) (ch : Fin 3), x0 (ix3 b r ch) = E (ix3 b (col r) ch))
    (h3 : ∀ (b : Fin 32) (r : Fin 128), x3 (ix2 b r) = M (ix2 b (col r)))
    (h5 : ∀ b : Fin 32, x5 (ix2 b (0 : Fin 1)) = I (ix2 b (0 : Fin 1)))
    (b : Fin 32) (r : Fin 128) (ch : Fin 3) :
    View.canon ([⟨r0_4, k0_pay1 (F := Ideal) (k0_pay5 (F := Ideal) x5) (k0_pay6 (F := Ideal) x3) (View.ld x0 r0_4)⟩,
      ⟨r0_3, k0_pay9 (F := Ideal) x5 x3 (View.ld x0 r0_3)⟩,
      ⟨r0_2, k0_pay8 (F := Ideal) x5 x3 (View.ld x0 r0_2)⟩] : List (View.Piece (Elt Ideal) S32x128x3 .f32)) (ix3 b r ch)
      = rgbOut E M I (ix3 b (col r) ch) := by
  refine (View.canon_apply_of_pieces (fun y : S32x128x3.Idx => rgbOut E M I (ix3 (y 0) (col (y 1)) (y 2))) _ ?_ (ix3 b r ch)
    (cover0_6 _ _ _ _)).trans rfl
  intro p hp
  simp only [List.mem_cons, List.mem_nil_iff, or_false] at hp
  rcases hp with rfl | rfl | rfl
  · intro (x : S32x128x1.Idx)
    obtain ⟨b', r', z', rfl⟩ : ∃ (b' : Fin 32) (r' : Fin 128) (z' : Fin 1), x = ix3 b' r' z' := ⟨x 0, x 1, x 2, eq_ix3 x⟩
    show k0_pay1 (F := Ideal) (k0_pay5 (F := Ideal) x5) (k0_pay6 (F := Ideal) x3) (View.ld x0 r0_4) (ix3 b' r' z')
      = rgbOut E M I (ix3 ((r0_4.emb (ix3 b' r' z')) 0) (col ((r0_4.emb (ix3 b' r' z')) 1)) ((r0_4.emb (ix3 b' r' z')) 2))
    rw [slab_emb 2 _ 2 rfl b' r' z']
    have hv : (View.ld (Val := Elt Ideal) (S := S32x128x3) (e' := .f32) x0 r0_4 : FVec Ideal S32x128x1 .f32) (ix3 b' r' (0 : Fin 1)) = E (ix3 b' (col r') 2) :=
      (congrArg x0 (slab_emb 2 _ 2 rfl b' r' 0)).trans (h0 b' r' 2)
    exact rgb_point E M I _ x3 x5 b' r' z' (col r') 2 hv (h3 b' r') (h5 b')
  · intro (x : S32x128x1.Idx)
    obtain ⟨b', r', z', rfl⟩ : ∃ (b' : Fin 32) (r' : Fin 128) (z' : Fin 1), x = ix3 b' r' z' := ⟨x 0, x 1, x 2, eq_ix3 x⟩
    show k0_pay1 (F := Ideal) (k0_pay5 (F := Ideal) x5) (k0_pay6 (F := Ideal) x3) (View.ld x0 r0_3) (ix3 b' r' z')
      = rgbOut E M I (ix3 ((r0_3.emb (ix3 b' r' z')) 0) (col ((r0_3.emb (ix3 b' r' z')) 1)) ((r0_3.emb (ix3 b' r' z')) 2))
    rw [slab_emb 1 _ 1 rfl b' r' z']
    have hv : (View.ld (Val := Elt Ideal) (S := S32x128x3) (e' := .f32) x0 r0_3 : FVec Ideal S32x128x1 .f32) (ix3 b' r' (0 : Fin 1)) = E (ix3 b' (col r') 1) :=
      (congrArg x0 (slab_emb 1 _ 1 rfl b' r' 0)).trans (h0 b' r' 1)
    exact rgb_point E M I _ x3 x5 b' r' z' (col r') 1 hv (h3 b' r') (h5 b')
  · intro (x : S32x128x1.Idx)
    obtain ⟨b', r', z', rfl⟩ : ∃ (b' : Fin 32) (r' : Fin 128) (z' : Fin 1), x = ix3 b' r' z' := ⟨x 0, x 1, x 2, eq_ix3 x⟩
    show k0_pay1 (F := Ideal) (k0_pay5 (F := Ideal) x5) (k0_pay6 (F := Ideal) x3) (View.ld x0 r0_2) (ix3 b' r' z')
      = rgbOut E M I (ix3 ((r0_2.emb (ix3 b' r' z')) 0) (col ((r0_2.emb (ix3 b' r' z')) 1)) ((r0_2.emb (ix3 b' r' z')) 2))
    rw [slab_emb 0 _ 0 rfl b' r' z']
    have hv : (View.ld (Val := Elt Ideal) (S := S32x128x3) (e' := .f32) x0 r0_2 : FVec Ideal S32x128x1 .f32) (ix3 b' r' (0 : Fin 1)) = E (ix3 b' (col r') 0) :=
      (congrArg x0 (slab_emb 0 _ 0 rfl b' r' 0)).trans (h0 b' r' 0)
    exact rgb_point E M I _ x3 x5 b' r' z' (col r') 0 hv (h3 b' r') (h5 b')

end Cert.KernelIdeal.Blocks

end
-- ==== Proof.KernelBlocks.lean ====
import proofs.«170907_j46136538694238_2_alg».proof.Proof.Gen.KernelIdeal.Frame
import proofs.«170907_j46136538694238_2_alg».proof.Proof.KernelBlocks.Grid
import proofs.«170907_j46136538694238_2_alg».proof.Proof.KernelBlocks.Payloads
import proofs.«170907_j46136538694238_2_alg».proof.Proof.KernelBlocks.Reads
import proofs.«170907_j46136538694238_2_alg».proof.Proof.KernelBlocks.Slabs
import Idealize.ShloMosaic.Lib.Pipeline.Value
import Idealize.ShloMosaic.Lib.ValueIdx

/-! The three output arrays of the masked scale-and-select kernel, each as one function of the arrays the region finds:
    what a point writes back is its block of the whole-array function (each input block read where the grid point puts
    it), and, the blocks covering the arrays, the arrays themselves. -/

noncomputable section

namespace Cert.KernelIdeal.Blocks

open Idealize.ShloMosaic Idealize.ShloMosaic.ValueIdx Cert.KernelIdeal Cert.KernelIdeal.Gen
open Idealize.ShloMosaic.Pipeline (Dat)

variable (m : (ℓ : Loc nD τ sig) → Buf (Elt Ideal) ℓ)

/-! ## The input blocks at a point are the arrays' columns -/

theorem blk0_apply (c : Dev nD) (t : Fin cfg0.N) (b : Fin 32) (r : Fin 128) (ch : Fin 3) (n : Fin 131072) (hn : n.val = t.val * 128 + r.val) :
    iblk m c 0 t (ix3 b r ch) = V m c (Pipeline.arrRef spec0 0) (ix3 b n ch) := by
  unfold iblk
  exact read0_at _ t b r ch n hn
theorem blk1_apply (c : Dev nD) (t : Fin cfg0.N) (b : Fin 32) (r : Fin 128) (z : Fin 1) (n : Fin 131072) (hn : n.val = t.val * 128 + r.val) :
    iblk m c 1 t (ix3 b r (0 : Fin 1)) = V m c (Pipeline.arrRef spec0 1) (ix3 b n z) := by
  unfold iblk
  exact read1_at _ t b r z n hn
theorem blk2_apply (c : Dev nD) (t : Fin cfg0.N) (b : Fin 32) (r : Fin 128) (z : Fin 1) (n : Fin 131072) (hn : n.val = t.val * 128 + r.val) :
    iblk m c 2 t (ix3 b r (0 : Fin 1)) = V m c (Pipeline.arrRef spec0 2) (ix3 b n z) := by
  unfold iblk
  exact read2_at _ t b r z n hn
theorem blk3_apply (c : Dev nD) (t : Fin cfg0.N) (b : Fin 32) (r : Fin 128) (n : Fin 131072) (hn : n.val = t.val * 128 + r.val) :
    iblk m c 3 t (ix2 b r) = V m c (Pipeline.arrRef spec0 3) (ix2 b n) := by
  unfold iblk
  exact read3_at _ t b r n hn
theorem blk4_apply (c : Dev nD) (t : Fin cfg0.N) (b : Fin 32) (r : Fin 128) (n : Fin 131072) (hn : n.val = t.val * 128 + r.val) :
    iblk m c 4 t (ix2 b r) = V m c (Pipeline.arrRef spec0 4) (ix2 b n) := by
  unfold iblk
  exact read4_at _ t b r n hn
theorem blk5_apply (c : Dev nD) (t : Fin cfg0.N) (b : Fin 32) :
    iblk m c 5 t (ix2 b (0 : Fin 1)) = V m c (Pipeline.arrRef spec0 5) (ix2 b (0 : Fin 1)) := by
  unfold iblk
  exact read5_at _ t b

/-! ## What a point writes back -/

/-- Point `t` writes back, to the first logit output, block `t` of `logitOut` of the arrays the region finds. -/
theorem flushed7_eq (c : Dev nD) (t : Fin cfg0.N) :
    (dats (F := Ideal) m 0 c).flushed 7 t = ((cfg0.win 7).blk t).view.read (Elt Ideal)
      (logitOut (V m c (Pipeline.arrRef spec0 1)) (V m c (Pipeline.arrRef spec0 3)) (V m c (Pipeline.arrRef spec0 5))) := by
  show (cfg0.win 7).cut (grid0.coords t) ((dats m 0 c).after 7 t) = _
  rw [after0_7]
  unfold out0_7
  rw [View.canon_unit_zero hz3]
  simp only [View.ld_unit_zero (S := S32x128x1) hz3, View.ld_unit_zero (S := S32x128) hz2, View.ld_unit_zero (S := S32x1) hz2]
  refine funext fun (j : S32x128x1.Idx) => ?_
  obtain ⟨b, r, z, rfl⟩ : ∃ (b : Fin 32) (r : Fin 128) (z : Fin 1), j = ix3 b r z := ⟨j 0, j 1, j 2, eq_ix3 j⟩
  have ht : t.val < 1024 := point_lt t
  obtain ⟨n, hn⟩ : ∃ n : Fin 131072, n.val = t.val * 128 + r.val := ⟨⟨t.val * 128 + r.val, by omega⟩, rfl⟩
  refine (cut7_apply _ t _).trans ?_
  refine Eq.trans ?_ (read7_at _ t b r z n hn).symm
  exact logit_point _ _ _ (iblk m c 1 t) (iblk m c 3 t) (iblk m c 5 t) b r z n
    (blk1_apply m c t b r z n hn) (blk3_apply m c t b r n hn) (blk5_apply m c t b)

/-- Point `t` writes back, to the second logit output, block `t` of `logitOut` of its own logits and mask. -/
theorem flushed8_eq (c : Dev nD) (t : Fin cfg0.N) :
    (dats (F := Ideal) m 0 c).flushed 8 t = ((cfg0.win 8).blk t).view.read (Elt Ideal)
      (logitOut (V m c (Pipeline.arrRef spec0 2)) (V m c (Pipeline.arrRef spec0 4)) (V m c (Pipeline.arrRef spec0 5))) := by
  show (cfg0.win 8).cut (grid0.coords t) ((dats m 0 c).after 8 t) = _
  rw [after0_8]
  unfold out0_8
  rw [View.canon_unit_zero hz3]
  simp only [View.ld_unit_zero (S := S32x128x1) hz3, View.ld_unit_zero (S := S32x128) hz2, View.ld_unit_zero (S := S32x1) hz2]
  refine funext fun (j : S32x128x1.Idx) => ?_
  obtain ⟨b, r, z, rfl⟩ : ∃ (b : Fin 32) (r : Fin 128) (z : Fin 1), j = ix3 b r z := ⟨j 0, j 1, j 2, eq_ix3 j⟩
  have ht : t.val < 1024 := point_lt t
  obtain ⟨n, hn⟩ : ∃ n : Fin 131072, n.val = t.val * 128 + r.val := ⟨⟨t.val * 128 + r.val, by omega⟩, rfl⟩
  refine (cut8_apply _ t _).trans ?_
  refine Eq.trans ?_ (read8_at _ t b r z n hn).symm
  exact logit_point' _ _ _ (iblk m c 2 t) (iblk m c 4 t) (iblk m c 5 t) b r z n
    (blk2_apply m c t b r z n hn) (blk4_apply m c t b r n hn) (blk5_apply m c t b)

/-- Point `t` writes back, to the colour output, block `t` of `rgbOut` of the arrays the region finds. -/
theorem flushed6_eq (c : Dev nD) (t : Fin cfg0.N) :
    (dats (F := Ideal) m 0 c).flushed 6 t = ((cfg0.win 6).blk t).view.read (Elt Ideal)
      (rgbOut (V m c (Pipeline.arrRef spec0 0)) (V m c (Pipeline.arrRef spec0 3)) (V m c (Pipeline.arrRef spec0 5))) := by
  show (cfg0.win 6).cut (grid0.coords t) ((dats m 0 c).after 6 t) = _
  rw [after0_6]
  unfold out0_6
  simp only [View.ld_unit_zero (S := S32x128) hz2, View.ld_unit_zero (S := S32x1) hz2]
  refine funext fun (j : S32x128x3.Idx) => ?_
  obtain ⟨b, r, ch, rfl⟩ : ∃ (b : Fin 32) (r : Fin 128) (ch : Fin 3), j = ix3 b r ch := ⟨j 0, j 1, j 2, eq_ix3 j⟩
  have ht : t.val < 1024 := point_lt t
  have hcol : ∀ r : Fin 128, t.val * 128 + r.val < 131072 := fun r => by omega
  refine (cut6_apply _ t _).trans ?_
  refine Eq.trans ?_ (read6_at _ t b r ch ⟨t.val * 128 + r.val, hcol r⟩ rfl).symm
  exact rgb_block _ _ _ (iblk m c 0 t) (iblk m c 3 t) (iblk m c 5 t) (fun r => ⟨t.val * 128 + r.val, hcol r⟩)
    (fun b r ch => blk0_apply m c t b r ch _ rfl) (fun b r => blk3_apply m c t b r _ rfl) (fun b => blk5_apply m c t b) b r ch

/-! ## The arrays -/

/-- The first logit output after the run. -/
theorem final7 (c : Dev nD) :
    (dats (F := Ideal) m 0 c).arrAt 7 cfg0.N = logitOut (V m c (Pipeline.arrRef spec0 1)) (V m c (Pipeline.arrRef spec0 3)) (V m c (Pipeline.arrRef spec0 5)) :=
  (dats m 0 c).arrAt_eq_of_cover 7
    (logitOut (V m c (Pipeline.arrRef spec0 1)) (V m c (Pipeline.arrRef spec0 3)) (V m c (Pipeline.arrRef spec0 5)))
    (fun t _ => flushed7_eq m c t) cover7

/-- The second logit output after the run. -/
theorem final8 (c : Dev nD) :
    (dats (F := Ideal) m 0 c).arrAt 8 cfg0.N = logitOut (V m c (Pipeline.arrRef spec0 2)) (V m c (Pipeline.arrRef spec0 4)) (V m c (Pipeline.arrRef spec0 5)) :=
  (dats m 0 c).arrAt_eq_of_cover 8
    (logitOut (V m c (Pipeline.arrRef spec0 2)) (V m c (Pipeline.arrRef spec0 4)) (V m c (Pipeline.arrRef spec0 5)))
    (fun t _ => flushed8_eq m c t) cover8

/-- The colour output after the run. -/
theorem final6 (c : Dev nD) :
    (dats (F := Ideal) m 0 c).arrAt 6 cfg0.N = rgbOut (V m c (Pipeline.arrRef spec0 0)) (V m c (Pipeline.arrRef spec0 3)) (V m c (Pipeline.arrRef spec0 5)) :=
  (dats m 0 c).arrAt_eq_of_cover 6
    (rgbOut (V m c (Pipeline.arrRef spec0 0)) (V m c (Pipeline.arrRef spec0 3)) (V m c (Pipeline.arrRef spec0 5)))
    (fun t _ => flushed6_eq m c t) cover6

end Cert.KernelIdeal.Blocks

end
-- ==== Proof.KernelHost.lean ====
/-
  What the region finds in its six input arrays. Before the region the host computes, for each packed array, the
  position of every slot in it (a prefix count of the mask, less one, clamped) and gathers the rows at those positions;
  the region's colour and logit arrays are those gathered rows under the 32-row shape, its two mask arrays the
  one-bit masks under the [32, 131072] shape widened to 32 bits, its idle column the [8, 4] flags as a [32, 1] column.
  Each is read off the fold of the host lines by rewriting every line's result at its own buffer.
-/
import proofs.«170907_j46136538694238_2_alg».proof.Proof.Gen.KernelIdeal.Frame
import Idealize.ShloMosaic.Lib.StableHlo.Run
import Idealize.ShloMosaic.PureOps.Ideal

set_option maxRecDepth 16384
set_option maxHeartbeats 4000000

noncomputable section

namespace Cert.KernelIdeal.KHost

open Idealize.ShloMosaic Idealize.ShloMosaic.TcCoe Idealize.ShloMosaic.StableHlo Idealize.SL.Sem
open Cert.KernelIdeal Cert.KernelIdeal.Gen

/-- The host lines before the region, as one list. -/
abbrev prefixOps : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13]

/-- Unfold the list of host lines to its operations. -/
local macro "open_prefix" : tactic => `(tactic| (
  simp only [prefixOps, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil,
    List.cons_append, List.nil_append]))

variable (W : Valuation τ sig (Elt Ideal))

/-- The colour array of the region: the gathered colour rows under the 32-row shape. -/
theorem colour_rows :
    (after prefixOps W (Proc.devRef .tc main_v13) : FVec Ideal S32x131072x3 .f32)
      = shapeCast S32x131072x3 (after prefixOps W (Proc.devRef .tc main_v12) : FVec Ideal S4194304x3 .f32)
          shapeCasts_S4194304x3_S32x131072x3 := by
  open_prefix
  after_results_simp
  all_goals rfl

/-- The surface-logit array of the region: the gathered rows under the 32-row shape. -/
theorem surface_rows :
    (after prefixOps W (Proc.devRef .tc main_v15) : FVec Ideal S32x131072x1 .f32)
      = shapeCast S32x131072x1 (after prefixOps W (Proc.devRef .tc main_v14) : FVec Ideal S4194304x1 .f32)
          shapeCasts_S4194304x1_S32x131072x1 := by
  open_prefix
  after_results_simp
  all_goals rfl

/-- The air-logit array of the region: the gathered rows under the 32-row shape. -/
theorem air_rows :
    (after prefixOps W (Proc.devRef .tc main_v17) : FVec Ideal S32x131072x1 .f32)
      = shapeCast S32x131072x1 (after prefixOps W (Proc.devRef .tc main_v16) : FVec Ideal S4194304x1 .f32)
          shapeCasts_S4194304x1_S32x131072x1 := by
  open_prefix
  after_results_simp
  all_goals rfl

/-- The surface mask array of the region: the mask under the [32, 131072] shape, widened. -/
theorem surface_mask :
    (after prefixOps W (Proc.devRef .tc main_v19) : IVec S32x131072 32)
      = extui 32 (shapeCast S32x131072 (W (Proc.devRef .tc main_arg4) : IVec S8x4x131072 1) shapeCasts_S8x4x131072_S32x131072) natLt_1_32 := by
  open_prefix
  after_results_simp
  all_goals rfl

/-- The air mask array of the region. -/
theorem air_mask :
    (after prefixOps W (Proc.devRef .tc main_v21) : IVec S32x131072 32)
      = extui 32 (shapeCast S32x131072 (W (Proc.devRef .tc main_arg5) : IVec S8x4x131072 1) shapeCasts_S8x4x131072_S32x131072) natLt_1_32 := by
  open_prefix
  after_results_simp
  all_goals rfl

/-- The idle column of the region. -/
theorem idle_col :
    (after prefixOps W (Proc.devRef .tc main_v22) : FVec Ideal S32x1 .f32)
      = shapeCast S32x1 (W (Proc.devRef .tc main_arg3) : FVec Ideal S8x4 .f32) shapeCasts_S8x4_S32x1 := by
  open_prefix
  after_results_simp
  all_goals rfl

end Cert.KernelIdeal.KHost

end
-- ==== Proof.KernelRun.lean ====
/-
  The idealized kernel program's run, read at its three results. The generated frame run leaves every array of the
  region at what the proof data computes and every other buffer as the lines after the region leave it; those
  lines are three reshapes, each re-reading one output array of the region ([32, 131072, C]) under the four-axis shape
  [8, 4, 131072, C]; no line after the region writes an argument array.
-/
import proofs.«170907_j46136538694238_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.KRun

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The colour output array of the region after its last point. -/
abbrev arr6 (c : Dev nD) : FVec Ideal S32x131072x3 .f32 := (dats (F := Ideal) m 0 c).arrAt 6 cfg0.N
/-- The surface-logit output array of the region after its last point. -/
abbrev arr7 (c : Dev nD) : FVec Ideal S32x131072x1 .f32 := (dats (F := Ideal) m 0 c).arrAt 7 cfg0.N
/-- The air-logit output array of the region after its last point. -/
abbrev arr8 (c : Dev nD) : FVec Ideal S32x131072x1 .f32 := (dats (F := Ideal) m 0 c).arrAt 8 cfg0.N

/-- The first result: the colour output array under the four-axis shape. -/
theorem tail_v24 (c : Dev nD) :
    Pipeline.afterTail₀ cfgs (dats (F := Ideal) m) 0 (V0 m) [hostOps1] c main_v24
      = shapeCast S8x4x131072x3 (arr6 m c) shapeCasts_S32x131072x3_S8x4x131072x3 := by
  unfold Pipeline.afterTail₀
  show StableHlo.after hostOps1 _ (Proc.devRef .tc main_v24) = _
  after_results
  exact congrArg (fun a : FVec Ideal S32x131072x3 .f32 => shapeCast S8x4x131072x3 a shapeCasts_S32x131072x3_S8x4x131072x3)
    (Pipeline.withArrays_arr spec0 launch0.win.arr_inj c (V0 m c) (fun w => (dats (F := Ideal) m 0 c).arrAt w cfg0.N) 6)

/-- The second result: the surface-logit output array under the four-axis shape. -/
theorem tail_v25 (c : Dev nD) :
    Pipeline.afterTail₀ cfgs (dats (F := Ideal) m) 0 (V0 m) [hostOps1] c main_v25
      = shapeCast S8x4x131072x1 (arr7 m c) shapeCasts_S32x131072x1_S8x4x131072x1 := by
  unfold Pipeline.afterTail₀
  show StableHlo.after hostOps1 _ (Proc.devRef .tc main_v25) = _
  after_results
  exact congrArg (fun a : FVec Ideal S32x131072x1 .f32 => shapeCast S8x4x131072x1 a shapeCasts_S32x131072x1_S8x4x131072x1)
    (Pipeline.withArrays_arr spec0 launch0.win.arr_inj c (V0 m c) (fun w => (dats (F := Ideal) m 0 c).arrAt w cfg0.N) 7)

/-- The third result: the air-logit output array under the four-axis shape. -/
theorem tail_v26 (c : Dev nD) :
    Pipeline.afterTail₀ cfgs (dats (F := Ideal) m) 0 (V0 m) [hostOps1] c main_v26
      = shapeCast S8x4x131072x1 (arr8 m c) shapeCasts_S32x131072x1_S8x4x131072x1 := by
  unfold Pipeline.afterTail₀
  show StableHlo.after hostOps1 _ (Proc.devRef .tc main_v26) = _
  after_results
  exact congrArg (fun a : FVec Ideal S32x131072x1 .f32 => shapeCast S8x4x131072x1 a shapeCasts_S32x131072x1_S8x4x131072x1)
    (Pipeline.withArrays_arr spec0 launch0.win.arr_inj c (V0 m c) (fun w => (dats (F := Ideal) m 0 c).arrAt w cfg0.N) 8)

/-- Every weakly fair execution of the idealized kernel program terminates with its three results at the region's
    output arrays under the four-axis shapes, and its argument arrays as launched. -/
theorem run : θ_run defs (onTc (τ := τ) (main (F := Ideal))) ⟨m, fun _ => 0, ρ⟩ (fun r => ∀ c : Dev nD,
      r.2.mem ((c.tc : Thread nD τ).loc main_v24) = shapeCast S8x4x131072x3 (arr6 m c) shapeCasts_S32x131072x3_S8x4x131072x3
      ∧ r.2.mem ((c.tc : Thread nD τ).loc main_v25) = shapeCast S8x4x131072x1 (arr7 m c) shapeCasts_S32x131072x1_S8x4x131072x1
      ∧ r.2.mem ((c.tc : Thread nD τ).loc main_v26) = shapeCast S8x4x131072x1 (arr8 m c) shapeCasts_S32x131072x1_S8x4x131072x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v24 (Pipeline.mem_restRefs_of main_v24 (by decide) (by decide))).trans (tail_v24 m c),
     ((h c).2 main_v25 (Pipeline.mem_restRefs_of main_v25 (by decide) (by decide))).trans (tail_v25 m c),
     ((h c).2 main_v26 (Pipeline.mem_restRefs_of main_v26 (by decide) (by decide))).trans (tail_v26 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.KRun

end
-- ==== Proof.Slots.lean ====
/-
  Index arithmetic shared by both sides. A slot (b, k, n) of the [8, 4, 131072] mask sits at row b·4 + k of the
  [32, 131072] layout and at position (b·4 + k)·131072 + n of the flat [4194304] layout; the reshapes between the flat,
  the 32-row and the (8, 4)-row layouts keep that position, so reading a reshaped array at an index is reading the
  operand at the index with the same position. A one-bit mask widened to 32 bits is nonzero exactly when the bit is set.
-/
import Idealize.ShloMosaic.PureOps.Ideal
import Idealize.ShloMosaic.Lib.ValueIdx
import Idealize.ShloMosaic.Lib.Pipeline.Value

noncomputable section

namespace Cert.Slots

open Idealize.ShloMosaic Idealize.ShloMosaic.ValueIdx

/-- Row of the 32-row layout that holds slot (b, k). -/
def bk (b : Fin 8) (k : Fin 4) : Fin 32 := ⟨b.val * 4 + k.val, by have := b.isLt; have := k.isLt; omega⟩

/-- Position of slot (b, k, n) in the flat layout. -/
def flat (b : Fin 8) (k : Fin 4) (n : Fin 131072) : Fin 4194304 :=
  ⟨(b.val * 4 + k.val) * 131072 + n.val, by have := b.isLt; have := k.isLt; have := n.isLt; omega⟩

theorem bk_val (b : Fin 8) (k : Fin 4) : (bk b k).val = b.val * 4 + k.val := rfl
theorem flat_val (b : Fin 8) (k : Fin 4) (n : Fin 131072) : (flat b k n).val = (b.val * 4 + k.val) * 131072 + n.val := rfl

variable {α : Type}

/-- [4194304, C] read as [8, 4, 131072, C]. -/
theorem cast_flat_to_slots {C : Nat} (x : (⟨2, ![4194304, C]⟩ : Shape).Idx → α)
    (h : (⟨2, ![4194304, C]⟩ : Shape).ShapeCasts ⟨4, ![8, 4, 131072, C]⟩) (b : Fin 8) (k : Fin 4) (n : Fin 131072) (ch : Fin C) :
    shapeCast ⟨4, ![8, 4, 131072, C]⟩ x h (ix4 b k n ch) = x (ix2 (flat b k n) ch) := by
  refine shapeCast_apply x h _ _ ?_
  rw [Shape.rowMajor_val_two, Shape.rowMajor_val_four]
  show (flat b k n).val * C + ch.val = ((b.val * 4 + k.val) * 131072 + n.val) * C + ch.val
  rw [flat_val]

/-- [4194304, C] read as [32, 131072, C]. -/
theorem cast_flat_to_rows {C : Nat} (x : (⟨2, ![4194304, C]⟩ : Shape).Idx → α)
    (h : (⟨2, ![4194304, C]⟩ : Shape).ShapeCasts ⟨3, ![32, 131072, C]⟩) (b : Fin 8) (k : Fin 4) (n : Fin 131072) (ch : Fin C) :
    shapeCast ⟨3, ![32, 131072, C]⟩ x h (ix3 (bk b k) n ch) = x (ix2 (flat b k n) ch) := by
  refine shapeCast_apply x h _ _ ?_
  rw [Shape.rowMajor_val_two, Shape.rowMajor_val_three]
  show (flat b k n).val * C + ch.val = ((bk b k).val * 131072 + n.val) * C + ch.val
  rw [flat_val, bk_val]

/-- [32, 131072, C] read as [8, 4, 131072, C]. -/
theorem cast_rows_to_slots {C : Nat} (x : (⟨3, ![32, 131072, C]⟩ : Shape).Idx → α)
    (h : (⟨3, ![32, 131072, C]⟩ : Shape).ShapeCasts ⟨4, ![8, 4, 131072, C]⟩) (b : Fin 8) (k : Fin 4) (n : Fin 131072) (ch : Fin C) :
    shapeCast ⟨4, ![8, 4, 131072, C]⟩ x h (ix4 b k n ch) = x (ix3 (bk b k) n ch) := by
  refine shapeCast_apply x h _ _ ?_
  rw [Shape.rowMajor_val_three, Shape.rowMajor_val_four]
  show ((bk b k).val * 131072 + n.val) * C + ch.val = ((b.val * 4 + k.val) * 131072 + n.val) * C + ch.val
  rw [bk_val]

/-- The [8, 4, 131072] mask read as [32, 131072]. -/
theorem cast_mask_to_rows (x : (⟨3, ![8, 4, 131072]⟩ : Shape).Idx → α)
    (h : (⟨3, ![8, 4, 131072]⟩ : Shape).ShapeCasts ⟨2, ![32, 131072]⟩) (b : Fin 8) (k : Fin 4) (n : Fin 131072) :
    shapeCast ⟨2, ![32, 131072]⟩ x h (ix2 (bk b k) n) = x (ix3 b k n) := by
  refine shapeCast_apply x h _ _ ?_
  rw [Shape.rowMajor_val_three, Shape.rowMajor_val_two]
  show (b.val * 4 + k.val) * 131072 + n.val = (bk b k).val * 131072 + n.val
  rw [bk_val]

/-- The [8, 4] idle flags read as a [32, 1] column. -/
theorem cast_idle_to_col (x : (⟨2, ![8, 4]⟩ : Shape).Idx → α)
    (h : (⟨2, ![8, 4]⟩ : Shape).ShapeCasts ⟨2, ![32, 1]⟩) (b : Fin 8) (k : Fin 4) :
    shapeCast ⟨2, ![32, 1]⟩ x h (ix2 (bk b k) (0 : Fin 1)) = x (ix2 b k) := by
  refine shapeCast_apply x h _ _ ?_
  rw [Shape.rowMajor_val_two, Shape.rowMajor_val_two]
  show b.val * 4 + k.val = (bk b k).val * 1 + (0 : Fin 1).val
  rw [bk_val]; simp

/-- Every index of the four-axis output is a slot and a channel. -/
theorem exists_slot {C : Nat} (j : (⟨4, ![8, 4, 131072, C]⟩ : Shape).Idx) :
    ∃ (b : Fin 8) (k : Fin 4) (n : Fin 131072) (ch : Fin C), j = ix4 b k n ch :=
  ⟨j 0, j 1, j 2, j 3, eq_ix4 j⟩

/-- A one-bit word widened to 32 bits differs from zero exactly when it is the bit one. -/
theorem widened_ne_zero (x : BitVec 1) : IntOp.cmpi .ne (x.setWidth 32) (0#32) = x := by
  rcases BitVec.eq_zero_or_eq_one x with h | h <;> subst h <;> decide

end Cert.Slots

end
-- ==== Proof.RefValue.lean ====
/-
  The reference's three results read at a slot and a channel, and its argument arrays. At slot (b, k, n) the colour
  result is, where the surface mask bit is set, the gathered colour row at the slot's flat position times (1 − idle of
  (b, k)), else 0; a logit result is, where its mask bit is set, the gathered logit times (1 − idle) plus idle·(−1e8),
  else −1000. The line is cut after the lines that gather the rows: the contents at the cut stay a variable, so only
  the few lines after it are opened and nothing here looks inside the gather.
-/
import proofs.«170907_j46136538694238_2_alg».proof.Proof.RefOps
import proofs.«170907_j46136538694238_2_alg».proof.Proof.Slots
import Idealize.ShloMosaic.Lib.StableHlo.Run
import Idealize.ShloMosaic.Lib.Pipeline.Value
import Idealize.ShloMosaic.Lib.ValueIdx

set_option maxRecDepth 16384
set_option maxHeartbeats 4000000
set_option pp.maxSteps 3000
set_option pp.deepTerms false

noncomputable section

namespace Cert.ReferenceIdeal.RefValue

open Idealize.ShloMosaic Idealize.ShloMosaic.StableHlo Idealize.ShloMosaic.ValueIdx Idealize.SL.Sem
open Cert.ReferenceIdeal Cert.ReferenceIdeal.Gen Cert.Slots Cert.ReferenceIdeal.RefOps

/-- The reference's host lines, as one list. -/
abbrev refOps : List (HloOp τ sig (Elt Ideal)) := (stretches (F := Ideal)).flatten

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

local macro "open_lists" : tactic => `(tactic| (
  simp only [refOps, stretches, ops0, ops1, ops2, ops3, ops4, ops5, ops6, ops7, ops8, ops9, ops10, ops11, ops12, ops13, ops14, ops15, ops16, ops17, ops18, ops19, ops20,
    List.flatten_cons, List.flatten_nil, List.append_nil, List.cons_append, List.nil_append]))

section Broadcasts

variable {α : Type}

/-- A mask with a trailing unit axis added reads the mask at the slot. -/
theorem mask_unit_at (x : S8x4x131072.Idx → α)
    (h1 : S8x4x131072.BroadcastsInDim S8x4x131072x1 (![0, 1, 2] : Fin 3 → Fin S8x4x131072x1.rank))
    (b : Fin 8) (k : Fin 4) (n : Fin 131072) (z : Fin 1) :
    broadcastInDim S8x4x131072x1 ![0, 1, 2] h1 x (ix4 b k n z) = x (ix3 b k n) :=
  broadcastInDim_apply _ h1 x _ _ (fun a => by match a with | ⟨0, _⟩ => rfl | ⟨1, _⟩ => rfl | ⟨2, _⟩ => rfl)

/-- An array with a trailing unit axis repeated along three channels reads its one channel. -/
theorem along_channels_at (x : S8x4x131072x1.Idx → α)
    (h2 : S8x4x131072x1.BroadcastsInDim S8x4x131072x3 (![0, 1, 2, 3] : Fin 4 → Fin S8x4x131072x3.rank))
    (b : Fin 8) (k : Fin 4) (n : Fin 131072) (ch : Fin 3) :
    broadcastInDim S8x4x131072x3 ![0, 1, 2, 3] h2 x (ix4 b k n ch) = x (ix4 b k n (0 : Fin 1)) :=
  broadcastInDim_apply _ h2 x _ _ (fun a => by match a with | ⟨0, _⟩ => rfl | ⟨1, _⟩ => rfl | ⟨2, _⟩ => rfl | ⟨3, _⟩ => rfl)

/-- A per-(batch, group) value given two trailing unit axes reads the value of the pair. -/
theorem pair_units_at (x : S8x4.Idx → α)
    (h1 : S8x4.BroadcastsInDim S8x4x1x1 (![0, 1] : Fin 2 → Fin S8x4x1x1.rank)) (b : Fin 8) (k : Fin 4) (u v : Fin 1) :
    broadcastInDim S8x4x1x1 ![0, 1] h1 x (ix4 b k u v) = x (ix2 b k) :=
  broadcastInDim_apply _ h1 x _ _ (fun a => by match a with | ⟨0, _⟩ => rfl | ⟨1, _⟩ => rfl)

/-- A per-pair value repeated over the slots and three channels reads the pair's value. -/
theorem over_slots3_at (x : S8x4x1x1.Idx → α)
    (h2 : S8x4x1x1.BroadcastsInDim S8x4x131072x3 (![0, 1, 2, 3] : Fin 4 → Fin S8x4x131072x3.rank))
    (b : Fin 8) (k : Fin 4) (n : Fin 131072) (ch : Fin 3) :
    broadcastInDim S8x4x131072x3 ![0, 1, 2, 3] h2 x (ix4 b k n ch) = x (ix4 b k (0 : Fin 1) (0 : Fin 1)) :=
  broadcastInDim_apply _ h2 x _ _ (fun a => by match a with | ⟨0, _⟩ => rfl | ⟨1, _⟩ => rfl | ⟨2, _⟩ => rfl | ⟨3, _⟩ => rfl)

/-- A per-pair value repeated over the slots (one channel) reads the pair's value. -/
theorem over_slots1_at (x : S8x4x1x1.Idx → α)
    (h2 : S8x4x1x1.BroadcastsInDim S8x4x131072x1 (![0, 1, 2, 3] : Fin 4 → Fin S8x4x131072x1.rank))
    (b : Fin 8) (k : Fin 4) (n : Fin 131072) (ch : Fin 1) :
    broadcastInDim S8x4x131072x1 ![0, 1, 2, 3] h2 x (ix4 b k n ch) = x (ix4 b k (0 : Fin 1) (0 : Fin 1)) :=
  broadcastInDim_apply _ h2 x _ _ (fun a => by match a with | ⟨0, _⟩ => rfl | ⟨1, _⟩ => rfl | ⟨2, _⟩ => rfl | ⟨3, _⟩ => rfl)

/-- A scalar repeated over any shape reads the scalar. -/
theorem scalar_at (S : Shape) (x : S_.Idx → α) (h : S_.BroadcastsInDim S (![] : Fin 0 → Fin S.rank)) (j : S.Idx) :
    broadcastInDim S ![] h x j = x ix0 :=
  broadcastInDim_apply _ h x j ix0 (fun a => a.elim0)

end Broadcasts

variable (W X : Valuation τ sig (Elt Ideal))

/-! ## The argument arrays -/

theorem arg0_kept : after refOps W (Proc.devRef .tc main_arg0) = W (Proc.devRef .tc main_arg0) := by
  open_lists; after_results_simp
theorem arg1_kept : after refOps W (Proc.devRef .tc main_arg1) = W (Proc.devRef .tc main_arg1) := by
  open_lists; after_results_simp
theorem arg2_kept : after refOps W (Proc.devRef .tc main_arg2) = W (Proc.devRef .tc main_arg2) := by
  open_lists; after_results_simp
theorem arg3_kept : after refOps W (Proc.devRef .tc main_arg3) = W (Proc.devRef .tc main_arg3) := by
  open_lists; after_results_simp
theorem arg4_kept : after refOps W (Proc.devRef .tc main_arg4) = W (Proc.devRef .tc main_arg4) := by
  open_lists; after_results_simp
theorem arg5_kept : after refOps W (Proc.devRef .tc main_arg5) = W (Proc.devRef .tc main_arg5) := by
  open_lists; after_results_simp

/-! ## Named values -/

/-- The surface mask, the air mask, the idle flags, as launched. -/
abbrev maskS : IVec S8x4x131072 1 := W (Proc.devRef .tc main_arg4)
abbrev maskA : IVec S8x4x131072 1 := W (Proc.devRef .tc main_arg5)
abbrev idle : FVec Ideal S8x4 .f32 := W (Proc.devRef .tc main_arg3)
/-- The gathered colour, surface-logit and air-logit rows. -/
abbrev rowsC : FVec Ideal S4194304x3 .f32 := after refOps W (Proc.devRef .tc main_v12)
abbrev rowsS : FVec Ideal S4194304x1 .f32 := after refOps W (Proc.devRef .tc main_v23)
abbrev rowsA : FVec Ideal S4194304x1 .f32 := after refOps W (Proc.devRef .tc main_v38)
/-- The three results. -/
abbrev outC : FVec Ideal S8x4x131072x3 .f32 := after refOps W (Proc.devRef .tc main_v16)
abbrev outS : FVec Ideal S8x4x131072x1 .f32 := after refOps W (Proc.devRef .tc main_v31)
abbrev outA : FVec Ideal S8x4x131072x1 .f32 := after refOps W (Proc.devRef .tc main_v46)

/-- (1 − idle) with two trailing unit axes, and idle with two trailing unit axes. -/
abbrev aliveQ : FVec Ideal S8x4x1x1 .f32 :=
  broadcastInDim S8x4x1x1 ![0, 1] bcast_S8x4_S8x4x1x1_0_1
    (subf (broadcastInDim S8x4 ![] bcast_S_S8x4 (constant (F := Ideal) S_ .f32 0x3F800000#32)) (idle W))
abbrev idleQ : FVec Ideal S8x4x1x1 .f32 := broadcastInDim S8x4x1x1 ![0, 1] bcast_S8x4_S8x4x1x1_0_1 (idle W)
abbrev maskSQ : IVec S8x4x131072x1 1 := broadcastInDim S8x4x131072x1 ![0, 1, 2] bcast_S8x4x131072_S8x4x131072x1_0_1_2 (maskS W)
abbrev maskAQ : IVec S8x4x131072x1 1 := broadcastInDim S8x4x131072x1 ![0, 1, 2] bcast_S8x4x131072_S8x4x131072x1_0_1_2 (maskA W)

/-! ## The two expressions, over any mask, rows and idle flags, and their value at a slot -/

/-- Colour: where the mask is set the rows (under the four-axis shape) times (1 − idle), else 0. -/
def colourExpr (mask : IVec S8x4x131072 1) (rows : FVec Ideal S4194304x3 .f32) (idl : FVec Ideal S8x4 .f32) :
    FVec Ideal S8x4x131072x3 .f32 :=
  select (broadcastInDim S8x4x131072x3 ![0, 1, 2, 3] bcast_S8x4x131072x1_S8x4x131072x3_0_1_2_3
      (broadcastInDim S8x4x131072x1 ![0, 1, 2] bcast_S8x4x131072_S8x4x131072x1_0_1_2 mask))
    (mulf (shapeCast S8x4x131072x3 rows shapeCasts_S4194304x3_S8x4x131072x3)
      (broadcastInDim S8x4x131072x3 ![0, 1, 2, 3] bcast_S8x4x1x1_S8x4x131072x3_0_1_2_3
        (broadcastInDim S8x4x1x1 ![0, 1] bcast_S8x4_S8x4x1x1_0_1
          (subf (broadcastInDim S8x4 ![] bcast_S_S8x4 (constant (F := Ideal) S_ .f32 0x3F800000#32)) idl))))
    (broadcastInDim S8x4x131072x3 ![] bcast_S_S8x4x131072x3 (constant (F := Ideal) S_ .f32 0x00000000#32))

/-- Logit: where the mask is set the rows times (1 − idle) plus idle·(−1e8), else −1000. -/
def logitExpr (mask : IVec S8x4x131072 1) (rows : FVec Ideal S4194304x1 .f32) (idl : FVec Ideal S8x4 .f32) :
    FVec Ideal S8x4x131072x1 .f32 :=
  select (broadcastInDim S8x4x131072x1 ![0, 1, 2] bcast_S8x4x131072_S8x4x131072x1_0_1_2 mask)
    (addf
      (mulf (shapeCast S8x4x131072x1 rows shapeCasts_S4194304x1_S8x4x131072x1)
        (broadcastInDim S8x4x131072x1 ![0, 1, 2, 3] bcast_S8x4x1x1_S8x4x131072x1_0_1_2_3
          (broadcastInDim S8x4x1x1 ![0, 1] bcast_S8x4_S8x4x1x1_0_1
            (subf (broadcastInDim S8x4 ![] bcast_S_S8x4 (constant (F := Ideal) S_ .f32 0x3F800000#32)) idl))))
      (broadcastInDim S8x4x131072x1 ![0, 1, 2, 3] bcast_S8x4x1x1_S8x4x131072x1_0_1_2_3
        (mulf (broadcastInDim S8x4x1x1 ![0, 1] bcast_S8x4_S8x4x1x1_0_1 idl)
          (broadcastInDim S8x4x1x1 ![] bcast_S_S8x4x1x1 (constant (F := Ideal) S_ .f32 0xCCBEBC20#32)))))
    (broadcastInDim S8x4x131072x1 ![] bcast_S_S8x4x131072x1 (constant (F := Ideal) S_ .f32 0xC47A0000#32))

theorem colourExpr_at (mask : IVec S8x4x131072 1) (rows : FVec Ideal S4194304x3 .f32) (idl : FVec Ideal S8x4 .f32)
    (b : Fin 8) (k : Fin 4) (n : Fin 131072) (ch : Fin 3) :
    colourExpr mask rows idl (ix4 b k n ch)
      = Scalar.select (mask (ix3 b k n))
          (rows (ix2 (flat b k n) ch) * (Ideal.ofBits .f32 0x3F800000#32 - idl (ix2 b k)))
          (Ideal.ofBits .f32 0x00000000#32) := by
  unfold colourExpr
  simp only [select_apply, mulf_apply, cast_flat_to_slots]
  rw [along_channels_at, mask_unit_at, over_slots3_at, pair_units_at, scalar_at]
  rfl

theorem logitExpr_at (mask : IVec S8x4x131072 1) (rows : FVec Ideal S4194304x1 .f32) (idl : FVec Ideal S8x4 .f32)
    (b : Fin 8) (k : Fin 4) (n : Fin 131072) (ch : Fin 1) :
    logitExpr mask rows idl (ix4 b k n ch)
      = Scalar.select (mask (ix3 b k n))
          (rows (ix2 (flat b k n) ch) * (Ideal.ofBits .f32 0x3F800000#32 - idl (ix2 b k))
            + idl (ix2 b k) * Ideal.ofBits .f32 0xCCBEBC20#32)
          (Ideal.ofBits .f32 0xC47A0000#32) := by
  unfold logitExpr
  simp only [select_apply, mulf_apply, addf_apply, cast_flat_to_slots]
  rw [mask_unit_at, over_slots1_at, over_slots1_at, pair_units_at, mulf_apply, pair_units_at, scalar_at, scalar_at]
  rfl

/-! ## Colour -/

abbrev preC : List (HloOp τ sig (Elt Ideal)) := List.flatten [ops0, ops1, ops2, ops3, ops4]
abbrev postC : List (HloOp τ sig (Elt Ideal)) := List.flatten [ops5, ops6, ops7, ops8, ops9, ops10, ops11, ops12, ops13, ops14, ops15, ops16, ops17, ops18, ops19, ops20]
theorem split_colour : refOps = preC ++ postC := by
  rw [refOps, show (stretches (F := Ideal)) = [ops0, ops1, ops2, ops3, ops4] ++ [ops5, ops6, ops7, ops8, ops9, ops10, ops11, ops12, ops13, ops14, ops15, ops16, ops17, ops18, ops19, ops20] from rfl, List.flatten_append]

theorem preC_mask : after preC W (Proc.devRef .tc main_v4) = maskSQ W := by open_lists; after_results_simp
theorem preC_alive : after preC W (Proc.devRef .tc main_v2) = aliveQ W := by open_lists; after_results_simp
theorem postC_rows : after postC X (Proc.devRef .tc main_v12) = X (Proc.devRef .tc main_v12) := by
  open_lists; after_results_simp

theorem postC_out : (after postC X (Proc.devRef .tc main_v16) : FVec Ideal S8x4x131072x3 .f32)
    = select (broadcastInDim S8x4x131072x3 ![0, 1, 2, 3] bcast_S8x4x131072x1_S8x4x131072x3_0_1_2_3 (X (Proc.devRef .tc main_v4) : IVec S8x4x131072x1 1))
        (mulf (shapeCast S8x4x131072x3 (X (Proc.devRef .tc main_v12) : FVec Ideal S4194304x3 .f32) shapeCasts_S4194304x3_S8x4x131072x3)
          (broadcastInDim S8x4x131072x3 ![0, 1, 2, 3] bcast_S8x4x1x1_S8x4x131072x3_0_1_2_3 (X (Proc.devRef .tc main_v2) : FVec Ideal S8x4x1x1 .f32)))
        (broadcastInDim S8x4x131072x3 ![] bcast_S_S8x4x131072x3 (constant (F := Ideal) S_ .f32 0x00000000#32)) := by
  open_lists; after_results_simp
  rfl

/-- The colour result as one expression of the mask, the gathered rows and idle. -/
theorem colour_whole : outC W = colourExpr (maskS W) (rowsC W) (idle W) := by
  have hout : after refOps W (Proc.devRef .tc main_v16) = after postC (after preC W) (Proc.devRef .tc main_v16) := by
    rw [split_colour, after_append]
  have hrows : after refOps W (Proc.devRef .tc main_v12) = after preC W (Proc.devRef .tc main_v12) := by
    rw [split_colour, after_append, postC_rows]
  unfold colourExpr
  refine (hout.trans (postC_out (after preC W))).trans ?_
  rw [preC_mask, preC_alive, ← hrows]

/-- The colour result at a slot and a channel. -/
theorem colour_at (b : Fin 8) (k : Fin 4) (n : Fin 131072) (ch : Fin 3) :
    outC W (ix4 b k n ch)
      = Scalar.select (maskS W (ix3 b k n))
          (rowsC W (ix2 (flat b k n) ch) * (Ideal.ofBits .f32 0x3F800000#32 - idle W (ix2 b k)))
          (Ideal.ofBits .f32 0x00000000#32) :=
  (congrFun (colour_whole W) (ix4 b k n ch)).trans (colourExpr_at _ _ _ b k n ch)

/-! ## Surface logits -/

abbrev preS : List (HloOp τ sig (Elt Ideal)) := List.flatten [ops0, ops1, ops2, ops3, ops4, ops5, ops6, ops7, ops8, ops9, ops10, ops11]
abbrev postS : List (HloOp τ sig (Elt Ideal)) := List.flatten [ops12, ops13, ops14, ops15, ops16, ops17, ops18, ops19, ops20]
theorem split_surface : refOps = preS ++ postS := by
  rw [refOps, show (stretches (F := Ideal)) = [ops0, ops1, ops2, ops3, ops4, ops5, ops6, ops7, ops8, ops9, ops10, ops11] ++ [ops12, ops13, ops14, ops15, ops16, ops17, ops18, ops19, ops20] from rfl, List.flatten_append]

theorem preS_mask : after preS W (Proc.devRef .tc main_v4) = maskSQ W := by open_lists; after_results_simp
theorem preS_alive : after preS W (Proc.devRef .tc main_v2) = aliveQ W := by open_lists; after_results_simp
theorem preS_idle : after preS W (Proc.devRef .tc main_v3) = idleQ W := by open_lists; after_results_simp
theorem postS_rows : after postS X (Proc.devRef .tc main_v23) = X (Proc.devRef .tc main_v23) := by
  open_lists; after_results_simp

theorem postS_out : (after postS X (Proc.devRef .tc main_v31) : FVec Ideal S8x4x131072x1 .f32)
    = select (X (Proc.devRef .tc main_v4) : IVec S8x4x131072x1 1)
        (addf
          (mulf (shapeCast S8x4x131072x1 (X (Proc.devRef .tc main_v23) : FVec Ideal S4194304x1 .f32) shapeCasts_S4194304x1_S8x4x131072x1)
            (broadcastInDim S8x4x131072x1 ![0, 1, 2, 3] bcast_S8x4x1x1_S8x4x131072x1_0_1_2_3 (X (Proc.devRef .tc main_v2) : FVec Ideal S8x4x1x1 .f32)))
          (broadcastInDim S8x4x131072x1 ![0, 1, 2, 3] bcast_S8x4x1x1_S8x4x131072x1_0_1_2_3
            (mulf (X (Proc.devRef .tc main_v3) : FVec Ideal S8x4x1x1 .f32)
              (broadcastInDim S8x4x1x1 ![] bcast_S_S8x4x1x1 (constant (F := Ideal) S_ .f32 0xCCBEBC20#32)))))
        (broadcastInDim S8x4x131072x1 ![] bcast_S_S8x4x131072x1 (constant (F := Ideal) S_ .f32 0xC47A0000#32)) := by
  open_lists; after_results_simp
  rfl

/-- The result as one expression of the mask, the gathered rows and idle. -/
theorem surface_whole : outS W = logitExpr (maskS W) (rowsS W) (idle W) := by
  have hout : after refOps W (Proc.devRef .tc main_v31) = after postS (after preS W) (Proc.devRef .tc main_v31) := by
    rw [split_surface, after_append]
  have hrows : after refOps W (Proc.devRef .tc main_v23) = after preS W (Proc.devRef .tc main_v23) := by
    rw [split_surface, after_append, postS_rows]
  unfold logitExpr
  refine (hout.trans (postS_out (after preS W))).trans ?_
  rw [preS_mask, preS_alive, preS_idle, ← hrows]

/-- The result at a slot. -/
theorem surface_at (b : Fin 8) (k : Fin 4) (n : Fin 131072) (ch : Fin 1) :
    outS W (ix4 b k n ch)
      = Scalar.select (maskS W (ix3 b k n))
          (rowsS W (ix2 (flat b k n) ch) * (Ideal.ofBits .f32 0x3F800000#32 - idle W (ix2 b k))
            + idle W (ix2 b k) * Ideal.ofBits .f32 0xCCBEBC20#32)
          (Ideal.ofBits .f32 0xC47A0000#32) :=
  (congrFun (surface_whole W) (ix4 b k n ch)).trans (logitExpr_at _ _ _ b k n ch)

/-! ## Air logits -/

abbrev preA : List (HloOp τ sig (Elt Ideal)) := List.flatten [ops0, ops1, ops2, ops3, ops4, ops5, ops6, ops7, ops8, ops9, ops10, ops11, ops12, ops13, ops14, ops15, ops16, ops17, ops18]
abbrev postA : List (HloOp τ sig (Elt Ideal)) := List.flatten [ops19, ops20]
theorem split_air : refOps = preA ++ postA := by
  rw [refOps, show (stretches (F := Ideal)) = [ops0, ops1, ops2, ops3, ops4, ops5, ops6, ops7, ops8, ops9, ops10, ops11, ops12, ops13, ops14, ops15, ops16, ops17, ops18] ++ [ops19, ops20] from rfl, List.flatten_append]

theorem preA_mask : after preA W (Proc.devRef .tc main_v5) = maskAQ W := by open_lists; after_results_simp
theorem preA_alive : after preA W (Proc.devRef .tc main_v2) = aliveQ W := by open_lists; after_results_simp
theorem preA_idle : after preA W (Proc.devRef .tc main_v3) = idleQ W := by open_lists; after_results_simp
theorem postA_rows : after postA X (Proc.devRef .tc main_v38) = X (Proc.devRef .tc main_v38) := by
  open_lists; after_results_simp

theorem postA_out : (after postA X (Proc.devRef .tc main_v46) : FVec Ideal S8x4x131072x1 .f32)
    = select (X (Proc.devRef .tc main_v5) : IVec S8x4x131072x1 1)
        (addf
          (mulf (shapeCast S8x4x131072x1 (X (Proc.devRef .tc main_v38) : FVec Ideal S4194304x1 .f32) shapeCasts_S4194304x1_S8x4x131072x1)
            (broadcastInDim S8x4x131072x1 ![0, 1, 2, 3] bcast_S8x4x1x1_S8x4x131072x1_0_1_2_3 (X (Proc.devRef .tc main_v2) : FVec Ideal S8x4x1x1 .f32)))
          (broadcastInDim S8x4x131072x1 ![0, 1, 2, 3] bcast_S8x4x1x1_S8x4x131072x1_0_1_2_3
            (mulf (X (Proc.devRef .tc main_v3) : FVec Ideal S8x4x1x1 .f32)
              (broadcastInDim S8x4x1x1 ![] bcast_S_S8x4x1x1 (constant (F := Ideal) S_ .f32 0xCCBEBC20#32)))))
        (broadcastInDim S8x4x131072x1 ![] bcast_S_S8x4x131072x1 (constant (F := Ideal) S_ .f32 0xC47A0000#32)) := by
  open_lists; after_results_simp
  rfl

/-- The result as one expression of the mask, the gathered rows and idle. -/
theorem air_whole : outA W = logitExpr (maskA W) (rowsA W) (idle W) := by
  have hout : after refOps W (Proc.devRef .tc main_v46) = after postA (after preA W) (Proc.devRef .tc main_v46) := by
    rw [split_air, after_append]
  have hrows : after refOps W (Proc.devRef .tc main_v38) = after preA W (Proc.devRef .tc main_v38) := by
    rw [split_air, after_append, postA_rows]
  unfold logitExpr
  refine (hout.trans (postA_out (after preA W))).trans ?_
  rw [preA_mask, preA_alive, preA_idle, ← hrows]

/-- The result at a slot. -/
theorem air_at (b : Fin 8) (k : Fin 4) (n : Fin 131072) (ch : Fin 1) :
    outA W (ix4 b k n ch)
      = Scalar.select (maskA W (ix3 b k n))
          (rowsA W (ix2 (flat b k n) ch) * (Ideal.ofBits .f32 0x3F800000#32 - idle W (ix2 b k))
            + idle W (ix2 b k) * Ideal.ofBits .f32 0xCCBEBC20#32)
          (Ideal.ofBits .f32 0xC47A0000#32) :=
  (congrFun (air_whole W) (ix4 b k n ch)).trans (logitExpr_at _ _ _ b k n ch)

end Cert.ReferenceIdeal.RefValue

end
-- ==== Proof.Takes.lean ====
/-
  Both programs compute the expanded rows in the same way: the mask is flattened and widened, its running count less one is
  clamped to the packed array's last row, negative positions are wrapped, and the packed array's rows are gathered at
  those positions, rows whose position falls outside the array replaced by the not-a-number word. The two programs'
  lines for this are the same operations on the same arguments, so their results are one array: once every line's result
  is rewritten at its own buffer the two sides are the same term of the argument arrays.
-/
import proofs.«170907_j46136538694238_2_alg».proof.Proof.KernelHost
import proofs.«170907_j46136538694238_2_alg».proof.Proof.RefOps

set_option maxRecDepth 16384
set_option maxHeartbeats 8000000

noncomputable section

namespace Cert.Takes

open Idealize.ShloMosaic Idealize.ShloMosaic.StableHlo Idealize.SL.Sem
open Cert.ReferenceIdeal

/-- The reference's host lines, as one list. -/
abbrev refOps : List (HloOp Cert.ReferenceIdeal.τ Cert.ReferenceIdeal.sig (Elt Ideal)) := (RefOps.stretches (F := Ideal)).flatten

local macro "open_both" : tactic => `(tactic| (
  simp only [refOps, RefOps.stretches, RefOps.ops0, RefOps.ops1, RefOps.ops2, RefOps.ops3, RefOps.ops4, RefOps.ops5, RefOps.ops6, RefOps.ops7, RefOps.ops8, RefOps.ops9, RefOps.ops10, RefOps.ops11, RefOps.ops12, RefOps.ops13, RefOps.ops14, RefOps.ops15, RefOps.ops16, RefOps.ops17, RefOps.ops18, RefOps.ops19, RefOps.ops20,
    Cert.KernelIdeal.KHost.prefixOps, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13,
    List.flatten_cons, List.flatten_nil, List.append_nil, List.cons_append, List.nil_append]))

variable (WK : Valuation Cert.KernelIdeal.τ Cert.KernelIdeal.sig (Elt Ideal))
  (WR : Valuation Cert.ReferenceIdeal.τ Cert.ReferenceIdeal.sig (Elt Ideal))

/-- The gathered colour rows agree. -/
theorem colour_take
    (h0 : (WR (Proc.devRef .tc Cert.ReferenceIdeal.main_arg0) : FVec Ideal ⟨2, ![1258578, 3]⟩ .f32) = WK (Proc.devRef .tc Cert.KernelIdeal.main_arg0))
    (h4 : (WR (Proc.devRef .tc Cert.ReferenceIdeal.main_arg4) : IVec ⟨3, ![8, 4, 131072]⟩ 1) = WK (Proc.devRef .tc Cert.KernelIdeal.main_arg4)) :
    (after Cert.KernelIdeal.KHost.prefixOps WK (Proc.devRef .tc Cert.KernelIdeal.main_v12) : FVec Ideal ⟨2, ![4194304, 3]⟩ .f32)
      = after refOps WR (Proc.devRef .tc Cert.ReferenceIdeal.main_v12) := by
  open_both
  after_results_simp
  rw [h0, h4]
  rfl

/-- The gathered surface-logit rows agree. -/
theorem surface_take
    (h1 : (WR (Proc.devRef .tc Cert.ReferenceIdeal.main_arg1) : FVec Ideal ⟨2, ![1258578, 1]⟩ .f32) = WK (Proc.devRef .tc Cert.KernelIdeal.main_arg1))
    (h4 : (WR (Proc.devRef .tc Cert.ReferenceIdeal.main_arg4) : IVec ⟨3, ![8, 4, 131072]⟩ 1) = WK (Proc.devRef .tc Cert.KernelIdeal.main_arg4)) :
    (after Cert.KernelIdeal.KHost.prefixOps WK (Proc.devRef .tc Cert.KernelIdeal.main_v14) : FVec Ideal ⟨2, ![4194304, 1]⟩ .f32)
      = after refOps WR (Proc.devRef .tc Cert.ReferenceIdeal.main_v23) := by
  open_both
  after_results_simp
  rw [h1, h4]
  rfl

/-- The gathered air-logit rows agree. -/
theorem air_take
    (h2 : (WR (Proc.devRef .tc Cert.ReferenceIdeal.main_arg2) : FVec Ideal ⟨2, ![1259650, 1]⟩ .f32) = WK (Proc.devRef .tc Cert.KernelIdeal.main_arg2))
    (h5 : (WR (Proc.devRef .tc Cert.ReferenceIdeal.main_arg5) : IVec ⟨3, ![8, 4, 131072]⟩ 1) = WK (Proc.devRef .tc Cert.KernelIdeal.main_arg5)) :
    (after Cert.KernelIdeal.KHost.prefixOps WK (Proc.devRef .tc Cert.KernelIdeal.main_v16) : FVec Ideal ⟨2, ![4194304, 1]⟩ .f32)
      = after refOps WR (Proc.devRef .tc Cert.ReferenceIdeal.main_v38) := by
  open_both
  after_results_simp
  rw [h2, h5]
  rfl

end Cert.Takes

end
-- ==== Proof.Bridge.lean ====
/-
  The two programs' results are one function of the arguments. The idealized kernel's result at slot (b, k, n) is its
  32-row output array at row b·4 + k, column n; that array is, where the widened mask word is nonzero, the expanded row
  times (1 − idle of the row) (plus idle·(−1e8) for a logit), else the fill value. The reference's result at the slot is
  the same expression of the bit, the gathered row at the slot's flat position and idle at (b, k). The widened word is
  nonzero exactly when the bit is set, the three layouts keep the slot's position, and the gathered rows are one array.
-/
import proofs.«170907_j46136538694238_2_alg».proof.Proof.KernelBlocks
import proofs.«170907_j46136538694238_2_alg».proof.Proof.KernelHost
import proofs.«170907_j46136538694238_2_alg».proof.Proof.KernelRun
import proofs.«170907_j46136538694238_2_alg».proof.Proof.RefValue
import proofs.«170907_j46136538694238_2_alg».proof.Proof.Takes
import proofs.«170907_j46136538694238_2_alg».proof.Proof.Slots

set_option maxRecDepth 16384
set_option maxHeartbeats 2000000
set_option pp.maxSteps 3000
set_option pp.deepTerms false

noncomputable section

namespace Cert.Bridge

open Idealize.ShloMosaic Idealize.ShloMosaic.StableHlo Idealize.ShloMosaic.ValueIdx Idealize.SL.Sem
open Cert.Slots Cert.KernelIdeal.Blocks

section Points

/-- The kernel's colour function of the 32-row layouts of the rows, the widened mask and the idle column, under the
    four-axis shape, at a slot: the select on the bit of the row at the slot's flat position times (1 − idle). -/
theorem colour_point (E : FVec Ideal ⟨3, ![32, 131072, 3]⟩ .f32) (M : IVec ⟨2, ![32, 131072]⟩ 32) (I : FVec Ideal ⟨2, ![32, 1]⟩ .f32)
    (rows : FVec Ideal ⟨2, ![4194304, 3]⟩ .f32) (mask : IVec ⟨3, ![8, 4, 131072]⟩ 1) (idl : FVec Ideal ⟨2, ![8, 4]⟩ .f32)
    (hr : (⟨2, ![4194304, 3]⟩ : Shape).ShapeCasts ⟨3, ![32, 131072, 3]⟩) (hm : (⟨3, ![8, 4, 131072]⟩ : Shape).ShapeCasts ⟨2, ![32, 131072]⟩)
    (hi : (⟨2, ![8, 4]⟩ : Shape).ShapeCasts ⟨2, ![32, 1]⟩) (hw : 1 < 32)
    (ho : (⟨3, ![32, 131072, 3]⟩ : Shape).ShapeCasts ⟨4, ![8, 4, 131072, 3]⟩)
    (hE : E = shapeCast ⟨3, ![32, 131072, 3]⟩ rows hr) (hM : M = extui 32 (shapeCast ⟨2, ![32, 131072]⟩ mask hm) hw)
    (hI : I = shapeCast ⟨2, ![32, 1]⟩ idl hi) (b : Fin 8) (k : Fin 4) (n : Fin 131072) (ch : Fin 3) :
    shapeCast ⟨4, ![8, 4, 131072, 3]⟩ (rgbOut E M I) ho (ix4 b k n ch)
      = Scalar.select (mask (ix3 b k n))
          (rows (ix2 (flat b k n) ch) * (Ideal.ofBits .f32 0x3F800000#32 - idl (ix2 b k)))
          (Ideal.ofBits .f32 0x00000000#32) := by
  subst hE hM hI
  rw [cast_rows_to_slots]
  unfold rgbOut
  show Scalar.select (IntOp.cmpi .ne (extui 32 (shapeCast ⟨2, ![32, 131072]⟩ mask hm) hw (ix2 (bk b k) n)) 0#32)
      (shapeCast ⟨3, ![32, 131072, 3]⟩ rows hr (ix3 (bk b k) n ch)
        * (Ideal.ofBits .f32 0x3F800000#32 - shapeCast ⟨2, ![32, 1]⟩ idl hi (ix2 (bk b k) (0 : Fin 1))))
      (Ideal.ofBits .f32 0x00000000#32) = _
  rw [extui_apply, cast_mask_to_rows, widened_ne_zero, cast_flat_to_rows, cast_idle_to_col]

/-- The same for a logit: the select on the bit of row·(1 − idle) + idle·(−1e8), else −1000. -/
theorem logit_point (E : FVec Ideal ⟨3, ![32, 131072, 1]⟩ .f32) (M : IVec ⟨2, ![32, 131072]⟩ 32) (I : FVec Ideal ⟨2, ![32, 1]⟩ .f32)
    (rows : FVec Ideal ⟨2, ![4194304, 1]⟩ .f32) (mask : IVec ⟨3, ![8, 4, 131072]⟩ 1) (idl : FVec Ideal ⟨2, ![8, 4]⟩ .f32)
    (hr : (⟨2, ![4194304, 1]⟩ : Shape).ShapeCasts ⟨3, ![32, 131072, 1]⟩) (hm : (⟨3, ![8, 4, 131072]⟩ : Shape).ShapeCasts ⟨2, ![32, 131072]⟩)
    (hi : (⟨2, ![8, 4]⟩ : Shape).ShapeCasts ⟨2, ![32, 1]⟩) (hw : 1 < 32)
    (ho : (⟨3, ![32, 131072, 1]⟩ : Shape).ShapeCasts ⟨4, ![8, 4, 131072, 1]⟩)
    (hE : E = shapeCast ⟨3, ![32, 131072, 1]⟩ rows hr) (hM : M = extui 32 (shapeCast ⟨2, ![32, 131072]⟩ mask hm) hw)
    (hI : I = shapeCast ⟨2, ![32, 1]⟩ idl hi) (b : Fin 8) (k : Fin 4) (n : Fin 131072) (ch : Fin 1) :
    shapeCast ⟨4, ![8, 4, 131072, 1]⟩ (logitOut E M I) ho (ix4 b k n ch)
      = Scalar.select (mask (ix3 b k n))
          (rows (ix2 (flat b k n) ch) * (Ideal.ofBits .f32 0x3F800000#32 - idl (ix2 b k))
            + idl (ix2 b k) * Ideal.ofBits .f32 0xCCBEBC20#32)
          (Ideal.ofBits .f32 0xC47A0000#32) := by
  subst hE hM hI
  rw [cast_rows_to_slots]
  unfold logitOut
  show Scalar.select (IntOp.cmpi .ne (extui 32 (shapeCast ⟨2, ![32, 131072]⟩ mask hm) hw (ix2 (bk b k) n)) 0#32)
      (shapeCast ⟨3, ![32, 131072, 1]⟩ rows hr (ix3 (bk b k) n ch)
          * (Ideal.ofBits .f32 0x3F800000#32 - shapeCast ⟨2, ![32, 1]⟩ idl hi (ix2 (bk b k) (0 : Fin 1)))
        + shapeCast ⟨2, ![32, 1]⟩ idl hi (ix2 (bk b k) (0 : Fin 1)) * Ideal.ofBits .f32 0xCCBEBC20#32)
      (Ideal.ofBits .f32 0xC47A0000#32) = _
  rw [extui_apply, cast_mask_to_rows, widened_ne_zero, cast_flat_to_rows, cast_idle_to_col]

end Points

section Values

variable (WK : Valuation Cert.KernelIdeal.τ Cert.KernelIdeal.sig (Elt Ideal))
  (WR : Valuation Cert.ReferenceIdeal.τ Cert.ReferenceIdeal.sig (Elt Ideal))

/-- The region's six input arrays, from contents `WK` at the launch. -/
abbrev kColour : FVec Ideal ⟨3, ![32, 131072, 3]⟩ .f32 := after Cert.KernelIdeal.KHost.prefixOps WK (Proc.devRef .tc Cert.KernelIdeal.main_v13)
abbrev kSurface : FVec Ideal ⟨3, ![32, 131072, 1]⟩ .f32 := after Cert.KernelIdeal.KHost.prefixOps WK (Proc.devRef .tc Cert.KernelIdeal.main_v15)
abbrev kAir : FVec Ideal ⟨3, ![32, 131072, 1]⟩ .f32 := after Cert.KernelIdeal.KHost.prefixOps WK (Proc.devRef .tc Cert.KernelIdeal.main_v17)
abbrev kMaskS : IVec ⟨2, ![32, 131072]⟩ 32 := after Cert.KernelIdeal.KHost.prefixOps WK (Proc.devRef .tc Cert.KernelIdeal.main_v19)
abbrev kMaskA : IVec ⟨2, ![32, 131072]⟩ 32 := after Cert.KernelIdeal.KHost.prefixOps WK (Proc.devRef .tc Cert.KernelIdeal.main_v21)
abbrev kIdle : FVec Ideal ⟨2, ![32, 1]⟩ .f32 := after Cert.KernelIdeal.KHost.prefixOps WK (Proc.devRef .tc Cert.KernelIdeal.main_v22)
/-- The gathered rows on the kernel's side, and the kernel's arguments. -/
abbrev kRowsC : FVec Ideal ⟨2, ![4194304, 3]⟩ .f32 := after Cert.KernelIdeal.KHost.prefixOps WK (Proc.devRef .tc Cert.KernelIdeal.main_v12)
abbrev kRowsS : FVec Ideal ⟨2, ![4194304, 1]⟩ .f32 := after Cert.KernelIdeal.KHost.prefixOps WK (Proc.devRef .tc Cert.KernelIdeal.main_v14)
abbrev kRowsA : FVec Ideal ⟨2, ![4194304, 1]⟩ .f32 := after Cert.KernelIdeal.KHost.prefixOps WK (Proc.devRef .tc Cert.KernelIdeal.main_v16)
abbrev kArgMaskS : IVec ⟨3, ![8, 4, 131072]⟩ 1 := WK (Proc.devRef .tc Cert.KernelIdeal.main_arg4)
abbrev kArgMaskA : IVec ⟨3, ![8, 4, 131072]⟩ 1 := WK (Proc.devRef .tc Cert.KernelIdeal.main_arg5)
abbrev kArgIdle : FVec Ideal ⟨2, ![8, 4]⟩ .f32 := WK (Proc.devRef .tc Cert.KernelIdeal.main_arg3)

/-- The reference's colour result is the kernel's colour function of the region's input arrays under the four-axis shape. -/
theorem colour_eq
    (h0 : (WR (Proc.devRef .tc Cert.ReferenceIdeal.main_arg0) : FVec Ideal ⟨2, ![1258578, 3]⟩ .f32) = WK (Proc.devRef .tc Cert.KernelIdeal.main_arg0))
    (h3 : (WR (Proc.devRef .tc Cert.ReferenceIdeal.main_arg3) : FVec Ideal ⟨2, ![8, 4]⟩ .f32) = WK (Proc.devRef .tc Cert.KernelIdeal.main_arg3))
    (h4 : (WR (Proc.devRef .tc Cert.ReferenceIdeal.main_arg4) : IVec ⟨3, ![8, 4, 131072]⟩ 1) = WK (Proc.devRef .tc Cert.KernelIdeal.main_arg4)) :
    Cert.ReferenceIdeal.RefValue.outC WR
      = shapeCast ⟨4, ![8, 4, 131072, 3]⟩ (rgbOut (kColour WK) (kMaskS WK) (kIdle WK)) Cert.KernelIdeal.Gen.shapeCasts_S32x131072x3_S8x4x131072x3 := by
  funext j
  obtain ⟨b, k, n, ch, rfl⟩ := exists_slot j
  have e4 : Cert.ReferenceIdeal.RefValue.maskS WR = kArgMaskS WK := h4
  have e3 : Cert.ReferenceIdeal.RefValue.idle WR = kArgIdle WK := h3
  have e0 : Cert.ReferenceIdeal.RefValue.rowsC WR = kRowsC WK := (Cert.Takes.colour_take WK WR h0 h4).symm
  refine (Cert.ReferenceIdeal.RefValue.colour_at WR b k n ch).trans ?_
  rw [e4, e3, e0]
  exact (colour_point (kColour WK) (kMaskS WK) (kIdle WK) (kRowsC WK) (kArgMaskS WK) (kArgIdle WK) _ _ _ _ _
    (Cert.KernelIdeal.KHost.colour_rows WK) (Cert.KernelIdeal.KHost.surface_mask WK) (Cert.KernelIdeal.KHost.idle_col WK) b k n ch).symm

/-- The reference's surface-logit result is the kernel's logit function of the region's input arrays. -/
theorem surface_eq
    (h1 : (WR (Proc.devRef .tc Cert.ReferenceIdeal.main_arg1) : FVec Ideal ⟨2, ![1258578, 1]⟩ .f32) = WK (Proc.devRef .tc Cert.KernelIdeal.main_arg1))
    (h3 : (WR (Proc.devRef .tc Cert.ReferenceIdeal.main_arg3) : FVec Ideal ⟨2, ![8, 4]⟩ .f32) = WK (Proc.devRef .tc Cert.KernelIdeal.main_arg3))
    (h4 : (WR (Proc.devRef .tc Cert.ReferenceIdeal.main_arg4) : IVec ⟨3, ![8, 4, 131072]⟩ 1) = WK (Proc.devRef .tc Cert.KernelIdeal.main_arg4)) :
    Cert.ReferenceIdeal.RefValue.outS WR
      = shapeCast ⟨4, ![8, 4, 131072, 1]⟩ (logitOut (kSurface WK) (kMaskS WK) (kIdle WK)) Cert.KernelIdeal.Gen.shapeCasts_S32x131072x1_S8x4x131072x1 := by
  funext j
  obtain ⟨b, k, n, ch, rfl⟩ := exists_slot j
  have e4 : Cert.ReferenceIdeal.RefValue.maskS WR = kArgMaskS WK := h4
  have e3 : Cert.ReferenceIdeal.RefValue.idle WR = kArgIdle WK := h3
  have e1 : Cert.ReferenceIdeal.RefValue.rowsS WR = kRowsS WK := (Cert.Takes.surface_take WK WR h1 h4).symm
  refine (Cert.ReferenceIdeal.RefValue.surface_at WR b k n ch).trans ?_
  rw [e4, e3, e1]
  exact (logit_point (kSurface WK) (kMaskS WK) (kIdle WK) (kRowsS WK) (kArgMaskS WK) (kArgIdle WK) _ _ _ _ _
    (Cert.KernelIdeal.KHost.surface_rows WK) (Cert.KernelIdeal.KHost.surface_mask WK) (Cert.KernelIdeal.KHost.idle_col WK) b k n ch).symm

/-- The reference's air-logit result is the kernel's logit function of the region's input arrays. -/
theorem air_eq
    (h2 : (WR (Proc.devRef .tc Cert.ReferenceIdeal.main_arg2) : FVec Ideal ⟨2, ![1259650, 1]⟩ .f32) = WK (Proc.devRef .tc Cert.KernelIdeal.main_arg2))
    (h3 : (WR (Proc.devRef .tc Cert.ReferenceIdeal.main_arg3) : FVec Ideal ⟨2, ![8, 4]⟩ .f32) = WK (Proc.devRef .tc Cert.KernelIdeal.main_arg3))
    (h5 : (WR (Proc.devRef .tc Cert.ReferenceIdeal.main_arg5) : IVec ⟨3, ![8, 4, 131072]⟩ 1) = WK (Proc.devRef .tc Cert.KernelIdeal.main_arg5)) :
    Cert.ReferenceIdeal.RefValue.outA WR
      = shapeCast ⟨4, ![8, 4, 131072, 1]⟩ (logitOut (kAir WK) (kMaskA WK) (kIdle WK)) Cert.KernelIdeal.Gen.shapeCasts_S32x131072x1_S8x4x131072x1 := by
  funext j
  obtain ⟨b, k, n, ch, rfl⟩ := exists_slot j
  have e5 : Cert.ReferenceIdeal.RefValue.maskA WR = kArgMaskA WK := h5
  have e3 : Cert.ReferenceIdeal.RefValue.idle WR = kArgIdle WK := h3
  have e2 : Cert.ReferenceIdeal.RefValue.rowsA WR = kRowsA WK := (Cert.Takes.air_take WK WR h2 h5).symm
  refine (Cert.ReferenceIdeal.RefValue.air_at WR b k n ch).trans ?_
  rw [e5, e3, e2]
  exact (logit_point (kAir WK) (kMaskA WK) (kIdle WK) (kRowsA WK) (kArgMaskA WK) (kArgIdle WK) _ _ _ _ _
    (Cert.KernelIdeal.KHost.air_rows WK) (Cert.KernelIdeal.KHost.air_mask WK) (Cert.KernelIdeal.KHost.idle_col WK) b k n ch).symm

end Values

section Programs

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's colour result, from a memory agreeing with the kernel's on the arguments, is the kernel's. -/
theorem colour
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    after Cert.ReferenceIdeal.RefValue.refOps (launchContents m' c) (Proc.devRef .tc Cert.ReferenceIdeal.main_v16)
      = shapeCast Cert.KernelIdeal.S8x4x131072x3 (Cert.KernelIdeal.KRun.arr6 m c) Cert.KernelIdeal.Gen.shapeCasts_S32x131072x3_S8x4x131072x3 :=
  (colour_eq (fun b => m (c, b)) (launchContents m' c) h0 h3 h4).trans
    (congrArg (fun a : FVec Ideal Cert.KernelIdeal.S32x131072x3 .f32 => shapeCast Cert.KernelIdeal.S8x4x131072x3 a Cert.KernelIdeal.Gen.shapeCasts_S32x131072x3_S8x4x131072x3)
      (Cert.KernelIdeal.Blocks.final6 m c).symm)

/-- The reference's surface-logit result is the kernel's. -/
theorem surface
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    after Cert.ReferenceIdeal.RefValue.refOps (launchContents m' c) (Proc.devRef .tc Cert.ReferenceIdeal.main_v31)
      = shapeCast Cert.KernelIdeal.S8x4x131072x1 (Cert.KernelIdeal.KRun.arr7 m c) Cert.KernelIdeal.Gen.shapeCasts_S32x131072x1_S8x4x131072x1 :=
  (surface_eq (fun b => m (c, b)) (launchContents m' c) h1 h3 h4).trans
    (congrArg (fun a : FVec Ideal Cert.KernelIdeal.S32x131072x1 .f32 => shapeCast Cert.KernelIdeal.S8x4x131072x1 a Cert.KernelIdeal.Gen.shapeCasts_S32x131072x1_S8x4x131072x1)
      (Cert.KernelIdeal.Blocks.final7 m c).symm)

/-- The reference's air-logit result is the kernel's. -/
theorem air
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after Cert.ReferenceIdeal.RefValue.refOps (launchContents m' c) (Proc.devRef .tc Cert.ReferenceIdeal.main_v46)
      = shapeCast Cert.KernelIdeal.S8x4x131072x1 (Cert.KernelIdeal.KRun.arr8 m c) Cert.KernelIdeal.Gen.shapeCasts_S32x131072x1_S8x4x131072x1 :=
  (air_eq (fun b => m (c, b)) (launchContents m' c) h2 h3 h5).trans
    (congrArg (fun a : FVec Ideal Cert.KernelIdeal.S32x131072x1 .f32 => shapeCast Cert.KernelIdeal.S8x4x131072x1 a Cert.KernelIdeal.Gen.shapeCasts_S32x131072x1_S8x4x131072x1)
      (Cert.KernelIdeal.Blocks.final8 m c).symm)

end Programs

end Cert.Bridge

end
-- ==== Proof.lean ====
/-
  Kernel against reference for the masked scatter-combine: from packed colour and logit rows and two boolean masks over
  (8, 4, 131072) slots, every slot's row is looked up at the running count of its mask (less one, clamped), scaled by
  (1 − idle) of its (batch, group), shifted by idle·(−1e8) for the logits, and kept where the mask bit is set (else 0 for
  colour, −1000 for logits). The kernel does the lookup on the host and the scale-shift-select in a tiled region over
  [32, 131072, C] arrays; the reference does all of it on the host over [8, 4, 131072, C] arrays.

  The three frames: the kernel programs' are the generated frame runs; the reference's is its run (a straight line of
  host operations) read at the argument arrays, which no line writes. The idealization rewrote nothing. At the ideal
  instance both programs end with equal results: the kernel's results are its region's output arrays under the four-axis
  shape, those arrays are the scale-shift-select of the region's input arrays slot by slot, and that is the reference's
  result at the same slot (Bridge).
-/
import proofs.«170907_j46136538694238_2_alg».proof.Defs
import proofs.«170907_j46136538694238_2_alg».proof.Proof.Gen.Kernel
import proofs.«170907_j46136538694238_2_alg».proof.Proof.Gen.Kernel.Skeleton
import proofs.«170907_j46136538694238_2_alg».proof.Proof.Gen.Kernel.Launch
import proofs.«170907_j46136538694238_2_alg».proof.Proof.Gen.Kernel.Points
import proofs.«170907_j46136538694238_2_alg».proof.Proof.Gen.Kernel.Frame
import proofs.«170907_j46136538694238_2_alg».proof.Proof.Gen.KernelIdeal
import proofs.«170907_j46136538694238_2_alg».proof.Proof.Gen.KernelIdeal.Skeleton
import proofs.«170907_j46136538694238_2_alg».proof.Proof.Gen.KernelIdeal.Launch
import proofs.«170907_j46136538694238_2_alg».proof.Proof.Gen.KernelIdeal.Points
import proofs.«170907_j46136538694238_2_alg».proof.Proof.Gen.KernelIdeal.Frame
import proofs.«170907_j46136538694238_2_alg».proof.Proof.Gen.ReferenceIdeal
import proofs.«170907_j46136538694238_2_alg».proof.Proof.Gen.Pre_finite_inputs
import proofs.«170907_j46136538694238_2_alg».proof.Proof.RefRun
import proofs.«170907_j46136538694238_2_alg».proof.Proof.Bridge
import Idealize.ShloMosaic.Adequacy
import Idealize.ShloMosaic.Init

set_option maxRecDepth 16384

noncomputable section

namespace Cert.Proof

open Idealize.ShloMosaic Idealize.ShloMosaic.StableHlo Idealize.SL.Sem

/-- The reference runs and keeps its argument arrays: its run's fold read at each argument, which no line writes. -/
theorem frame_reference : Cert.frame_ReferenceIdeal := fun m ρ _ =>
  (θ_run Cert.ReferenceIdeal.defs _ _).mono (fun _ h c =>
    ⟨(h c Cert.ReferenceIdeal.main_arg0).trans (Cert.ReferenceIdeal.RefValue.arg0_kept _),
     (h c Cert.ReferenceIdeal.main_arg1).trans (Cert.ReferenceIdeal.RefValue.arg1_kept _),
     (h c Cert.ReferenceIdeal.main_arg2).trans (Cert.ReferenceIdeal.RefValue.arg2_kept _),
     (h c Cert.ReferenceIdeal.main_arg3).trans (Cert.ReferenceIdeal.RefValue.arg3_kept _),
     (h c Cert.ReferenceIdeal.main_arg4).trans (Cert.ReferenceIdeal.RefValue.arg4_kept _),
     (h c Cert.ReferenceIdeal.main_arg5).trans (Cert.ReferenceIdeal.RefValue.arg5_kept _)⟩)
    (Cert.ReferenceIdeal.RefRun.run (F := Ideal) m ρ)

/-- Both idealized programs run and end with equal results. -/
theorem algebraic : Cert.algebraic_KernelIdeal_ReferenceIdeal := by
  intro m ρ m' ρ' _ hagree
  refine ⟨_, _, _, Cert.KernelIdeal.KRun.run m ρ, ?_⟩
  refine (θ_run Cert.ReferenceIdeal.defs _ _).mono (fun _ h c => ?_) (Cert.ReferenceIdeal.RefRun.run (F := Ideal) m' ρ')
  obtain ⟨h0, h1, h2, h3, h4, h5⟩ := hagree c
  exact ⟨(h c Cert.ReferenceIdeal.main_v16).trans (Cert.Bridge.colour m m' c h0 h3 h4),
    (h c Cert.ReferenceIdeal.main_v31).trans (Cert.Bridge.surface m m' c h1 h3 h4),
    (h c Cert.ReferenceIdeal.main_v46).trans (Cert.Bridge.air m m' c h2 h3 h5),
    (h c Cert.ReferenceIdeal.main_arg0).trans (Cert.ReferenceIdeal.RefValue.arg0_kept _),
    (h c Cert.ReferenceIdeal.main_arg1).trans (Cert.ReferenceIdeal.RefValue.arg1_kept _),
    (h c Cert.ReferenceIdeal.main_arg2).trans (Cert.ReferenceIdeal.RefValue.arg2_kept _),
    (h c Cert.ReferenceIdeal.main_arg3).trans (Cert.ReferenceIdeal.RefValue.arg3_kept _),
    (h c Cert.ReferenceIdeal.main_arg4).trans (Cert.ReferenceIdeal.RefValue.arg4_kept _),
    (h c Cert.ReferenceIdeal.main_arg5).trans (Cert.ReferenceIdeal.RefValue.arg5_kept _)⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
